-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x10x5x384x384 : Shape := ⟨5, ![4, 10, 5, 384, 384]⟩
abbrev S4x10x1x384x384 : Shape := ⟨5, ![4, 10, 1, 384, 384]⟩
abbrev S5 : Shape := ⟨1, ![5]⟩
abbrev S_ : Shape := ⟨0, ![]⟩

class Facts : Prop where
  bcast_S_S4x10x5x384x384 : S_.BroadcastsInDim S4x10x5x384x384 (![] : Fin 0 → Fin S4x10x5x384x384.rank)
  reducesTo_S4x10x5x384x384_S_d0_1_2_3_4 : S4x10x5x384x384.ReducesTo [0, 1, 2, 3, 4] S_
  h_S_ : 0 < S_.numel
  bcast_S_S4x10x1x384x384 : S_.BroadcastsInDim S4x10x1x384x384 (![] : Fin 0 → Fin S4x10x1x384x384.rank)
  reducesTo_S4x10x1x384x384_S_d0_1_2_3_4 : S4x10x1x384x384.ReducesTo [0, 1, 2, 3, 4] S_
  bcast_S_S5 : S_.BroadcastsInDim S5 (![] : Fin 0 → Fin S5.rank)
  reducesTo_S5_S_d0 : S5.ReducesTo [0] S_

variable [Facts]

def fn {F : FTy → Type} [FloatOps F] (main_arg0 : FVec F S4x10x5x384x384 .f32) (main_arg1 : FVec F S4x10x1x384x384 .f32) (main_arg2 : FVec F S5 .f32) : IVec S_ 1 :=
  let main_v0 : FVec F S4x10x5x384x384 .f32 := Host.absf main_arg0
  let main_cst : FVec F S_ .f32 := constant S_ .f32 0x7F800000#32
  let main_v1 : FVec F S4x10x5x384x384 .f32 := broadcastInDim S4x10x5x384x384 ![] bcast_S_S4x10x5x384x384 main_cst
  let main_v2 : IVec S4x10x5x384x384 1 := cmpf .olt main_v0 main_v1
  let main_c : IVec S_ 1 := constantI S_ 1 1#1
  let main_v3 : IVec S_ 1 := (fun x v => Host.reduce IntOp.andi x v reducesTo_S4x10x5x384x384_S_d0_1_2_3_4 h_S_) main_v2 main_c
  let main_v4 : FVec F S4x10x1x384x384 .f32 := Host.absf main_arg1
  let main_cst_0 : FVec F S_ .f32 := constant S_ .f32 0x7F800000#32
  let main_v5 : FVec F S4x10x1x384x384 .f32 := broadcastInDim S4x10x1x384x384 ![] bcast_S_S4x10x1x384x384 main_cst_0
  let main_v6 : IVec S4x10x1x384x384 1 := cmpf .olt main_v4 main_v5
  let main_c_1 : IVec S_ 1 := constantI S_ 1 1#1
  let main_v7 : IVec S_ 1 := (fun x v => Host.reduce IntOp.andi x v reducesTo_S4x10x1x384x384_S_d0_1_2_3_4 h_S_) main_v6 main_c_1
  let main_v8 : IVec S_ 1 := andi main_v3 main_v7
  let main_v9 : FVec F S5 .f32 := Host.absf main_arg2
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  main_v13
-- ==== Kernel.lean ====
abbrev S4x10x5x384x384 : Shape := ⟨5, ![4, 10, 5, 384, 384]⟩
abbrev S4x10x1x384x384 : Shape := ⟨5, ![4, 10, 1, 384, 384]⟩
abbrev S5 : Shape := ⟨1, ![5]⟩
abbrev S40x5x384x384 : Shape := ⟨4, ![40, 5, 384, 384]⟩
abbrev S40x384x384 : Shape := ⟨3, ![40, 384, 384]⟩
abbrev S5x1 : Shape := ⟨2, ![5, 1]⟩
abbrev S2x5x384x384 : Shape := ⟨4, ![2, 5, 384, 384]⟩
abbrev S2x384x384 : Shape := ⟨3, ![2, 384, 384]⟩
abbrev S2x1x384x384 : Shape := ⟨4, ![2, 1, 384, 384]⟩
abbrev S2x5x384 : Shape := ⟨3, ![2, 5, 384]⟩
abbrev S2x5x384x1 : Shape := ⟨4, ![2, 5, 384, 1]⟩
abbrev S5x384x1 : Shape := ⟨3, ![5, 384, 1]⟩
abbrev S_ : Shape := ⟨0, ![]⟩

abbrev nBuf : Space → Nat
  | .hbm => 28
  | .vmem => 7
  | .smem => 0
  | _ => 0

abbrev bufTy : (tb : Table) → Fin (tcTables nBuf tb) → BufTy
  | .hbm, ⟨0, _⟩ => ⟨S4x10x5x384x384, .f32⟩
  | .hbm, ⟨1, _⟩ => ⟨S4x10x1x384x384, .f32⟩
  | .hbm, ⟨2, _⟩ => ⟨S5, .f32⟩
  | .hbm, ⟨3, _⟩ => ⟨S40x5x384x384, .f32⟩
  | .hbm, ⟨4, _⟩ => ⟨S40x384x384, .f32⟩
  | .hbm, ⟨5, _⟩ => ⟨S5x1, .f32⟩
  | .hbm, ⟨6, _⟩ => ⟨S5x1, .f32⟩
  | .hbm, ⟨7, _⟩ => ⟨S5x1, .f32⟩
  | .hbm, ⟨8, _⟩ => ⟨S5, .f32⟩
  | .hbm, ⟨9, _⟩ => ⟨S5, .f32⟩
  | .hbm, ⟨10, _⟩ => ⟨S5, .f32⟩
  | .hbm, ⟨11, _⟩ => ⟨S_, .f32⟩
  | .hbm, ⟨12, _⟩ => ⟨S5, .f32⟩
  | .hbm, ⟨13, _⟩ => ⟨S5, .f32⟩
  | .hbm, ⟨14, _⟩ => ⟨S_, .f32⟩
  | .hbm, ⟨15, _⟩ => ⟨S5, .f32⟩
  | .hbm, ⟨16, _⟩ => ⟨S5, .f32⟩
  | .hbm, ⟨17, _⟩ => ⟨S5, .f32⟩
  | .hbm, ⟨18, _⟩ => ⟨S_, .f32⟩
  | .hbm, ⟨19, _⟩ => ⟨S5, .f32⟩
  | .hbm, ⟨20, _⟩ => ⟨S5, .f32⟩
  | .hbm, ⟨21, _⟩ => ⟨S5, .f32⟩
  | .hbm, ⟨22, _⟩ => ⟨S_, .f32⟩
  | .hbm, ⟨23, _⟩ => ⟨S5, .f32⟩
  | .hbm, ⟨24, _⟩ => ⟨S5, .f32⟩
  | .hbm, ⟨25, _⟩ => ⟨S5, .f32⟩
  | .hbm, ⟨26, _⟩ => ⟨S_, .f32⟩
  | .hbm, ⟨27, _⟩ => ⟨S_, .f32⟩
  | .local _ .vmem, ⟨0, _⟩ => ⟨S2x5x384x384, .f32⟩
  | .local _ .vmem, ⟨1, _⟩ => ⟨S2x5x384x384, .f32⟩
  | .local _ .vmem, ⟨2, _⟩ => ⟨S2x384x384, .f32⟩
  | .local _ .vmem, ⟨3, _⟩ => ⟨S2x384x384, .f32⟩
  | .local _ .vmem, ⟨4, _⟩ => ⟨S5x1, .f32⟩
  | .local _ .vmem, ⟨5, _⟩ => ⟨S5x1, .f32⟩
  | .local _ .vmem, ⟨6, _⟩ => ⟨S5x1, .f32⟩
  | _, _ => ⟨S4x10x5x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x5x384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x384x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S4x10x5x384x384_S40x5x384x384 : S4x10x5x384x384.ShapeCasts S40x5x384x384
  shapeCasts_S4x10x1x384x384_S40x384x384 : S4x10x1x384x384.ShapeCasts S40x384x384
  inb_S2x5x384x384_S2x5x384x384_0_0_0_0 : ∀ a, (![0, 0, 0, 0] : Fin 4 → Nat) a + S2x5x384x384.size a ≤ S2x5x384x384.size a
  h_S2x5x384x384 : 0 < S2x5x384x384.numel
  shapeCasts_S2x5x384x384_S2x5x384x384 : S2x5x384x384.ShapeCasts S2x5x384x384
  inb_S2x384x384_S2x384x384_0_0_0 : ∀ a, (![0, 0, 0] : Fin 3 → Nat) a + S2x384x384.size a ≤ S2x384x384.size a
  h_S2x384x384 : 0 < S2x384x384.numel
  shapeCasts_S2x384x384_S2x384x384 : S2x384x384.ShapeCasts S2x384x384
  natLt_1_32 : 1 < 32
  shapeCasts_S2x384x384_S2x1x384x384 : S2x384x384.ShapeCasts S2x1x384x384
  shapeCasts_S2x1x384x384_S2x1x384x384 : S2x1x384x384.ShapeCasts S2x1x384x384
  broadcasts_S2x1x384x384_S2x5x384x384 : S2x1x384x384.Broadcasts S2x5x384x384
  iota_S2x5x384x384_d1_w32 : S2x5x384x384.Iotas .tc 32 [1]
  reduces_S2x5x384x384_S2x5x384 : S2x5x384x384.Reduces [3] S2x5x384
  shapeCasts_S2x5x384_S2x5x384x1 : S2x5x384.ShapeCasts S2x5x384x1
  reduces_S2x5x384x1_S5x384x1 : S2x5x384x1.Reduces [0] S5x384x1
  reduces_S5x384x1_S5x1 : S5x384x1.Reduces [1] S5x1
  inb_S5x1_S5x1_0_0 : ∀ a, (![0, 0] : Fin 2 → Nat) a + S5x1.size a ≤ S5x1.size a
  h_S5x1 : 0 < S5x1.numel
  shapeCasts_S5x1_S5x1 : S5x1.ShapeCasts S5x1
  shapeCasts_S5x1_S5 : S5x1.ShapeCasts S5
  bcast_S_S5 : S_.BroadcastsInDim S5 (![] : Fin 0 → Fin S5.rank)
  reducesTo_S5_S_d0 : S5.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x5x384x384.size a ≤ S40x5x384x384.size a
  hwx0_0 : ∀ i : grid0.Coords, EltTy.bits .f32 = 32 ∨ (Rect.block (s := S40x5x384x384) S2x5x384x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x384x384.size a ≤ S40x384x384.size a
  hwx0_1 : ∀ i : grid0.Coords, EltTy.bits .f32 = 32 ∨ (Rect.block (s := S40x384x384) S2x384x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x1.size a ≤ S5x1.size a
  hwx0_2 : ∀ i : grid0.Coords, EltTy.bits .f32 = 32 ∨ (Rect.block (s := S5x1) S5x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x1.size a ≤ S5x1.size a
  hwx0_3 : ∀ i : grid0.Coords, EltTy.bits .f32 = 32 ∨ (Rect.block (s := S5x1) S5x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x1.size a ≤ S5x1.size a
  hwx0_4 : ∀ i : grid0.Coords, EltTy.bits .f32 = 32 ∨ (Rect.block (s := S5x1) S5x1.size (cc0_transform_4 i) (hinb0_4 i)).WholeWords (EltTy.packing .f32)

variable [Facts₀]

abbrev win0_0 : Pipeline.Window sig grid0 :=
  Pipeline.Window.ofSpec (Memref.whole main_v0) S2x5x384x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x384x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S5x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S5x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S5x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x10x5x384x384 : Shape := ⟨5, ![4, 10, 5, 384, 384]⟩
abbrev S4x10x1x384x384 : Shape := ⟨5, ![4, 10, 1, 384, 384]⟩
abbrev S5 : Shape := ⟨1, ![5]⟩
abbrev S4x5x10x384x384 : Shape := ⟨5, ![4, 5, 10, 384, 384]⟩
abbrev S4x1x10x384x384 : Shape := ⟨5, ![4, 1, 10, 384, 384]⟩
abbrev S_ : Shape := ⟨0, ![]⟩
abbrev S1x5x1x1x1 : Shape := ⟨5, ![1, 5, 1, 1, 1]⟩

abbrev nBuf : Space → Nat
  | .hbm => 57
  | .vmem => 0
  | .smem => 0
  | _ => 0

abbrev bufTy : (tb : Table) → Fin (tcTables nBuf tb) → BufTy
  | .hbm, ⟨0, _⟩ => ⟨S4x10x5x384x384, .f32⟩
  | .hbm, ⟨1, _⟩ => ⟨S4x10x1x384x384, .f32⟩
  | .hbm, ⟨2, _⟩ => ⟨S5, .f32⟩
  | .hbm, ⟨3, _⟩ => ⟨S4x5x10x384x384, .f32⟩
  | .hbm, ⟨4, _⟩ => ⟨S4x1x10x384x384, .f32⟩
  | .hbm, ⟨5, _⟩ => ⟨S_, .i32⟩
  | .hbm, ⟨6, _⟩ => ⟨S4x1x10x384x384, .i32⟩
  | .hbm, ⟨7, _⟩ => ⟨S_, .f32⟩
  | .hbm, ⟨8, _⟩ => ⟨S4x1x10x384x384, .f32⟩
  | .hbm, ⟨9, _⟩ => ⟨S4x1x10x384x384, .i1⟩
  | .hbm, ⟨10, _⟩ => ⟨S4x1x10x384x384, .i32⟩
  | .hbm, ⟨11, _⟩ => ⟨S4x1x10x384x384, .i32⟩
  | .hbm, ⟨12, _⟩ => ⟨S_, .f32⟩
  | .hbm, ⟨13, _⟩ => ⟨S4x1x10x384x384, .f32⟩
  | .hbm, ⟨14, _⟩ => ⟨S4x1x10x384x384, .i1⟩
  | .hbm, ⟨15, _⟩ => ⟨S4x1x10x384x384, .i32⟩
  | .hbm, ⟨16, _⟩ => ⟨S4x1x10x384x384, .i32⟩
  | .hbm, ⟨17, _⟩ => ⟨S_, .f32⟩
  | .hbm, ⟨18, _⟩ => ⟨S4x1x10x384x384, .f32⟩
  | .hbm, ⟨19, _⟩ => ⟨S4x1x10x384x384, .i1⟩
  | .hbm, ⟨20, _⟩ => ⟨S4x1x10x384x384, .i32⟩
  | .hbm, ⟨21, _⟩ => ⟨S4x1x10x384x384, .i32⟩
  | .hbm, ⟨22, _⟩ => ⟨S_, .f32⟩
  | .hbm, ⟨23, _⟩ => ⟨S4x1x10x384x384, .f32⟩
  | .hbm, ⟨24, _⟩ => ⟨S4x1x10x384x384, .i1⟩
  | .hbm, ⟨25, _⟩ => ⟨S4x1x10x384x384, .i32⟩
  | .hbm, ⟨26, _⟩ => ⟨S4x1x10x384x384, .i32⟩
  | .hbm, ⟨27, _⟩ => ⟨S5, .i32⟩
  | .hbm, ⟨28, _⟩ => ⟨S1x5x1x1x1, .i32⟩
  | .hbm, ⟨29, _⟩ => ⟨S4x5x10x384x384, .i32⟩
  | .hbm, ⟨30, _⟩ => ⟨S4x5x10x384x384, .i32⟩
  | .hbm, ⟨31, _⟩ => ⟨S4x5x10x384x384, .i1⟩
  | .hbm, ⟨32, _⟩ => ⟨S4x5x10x384x384, .f32⟩
  | .hbm, ⟨33, _⟩ => ⟨S4x5x10x384x384, .f32⟩
  | .hbm, ⟨34, _⟩ => ⟨S_, .f32⟩
  | .hbm, ⟨35, _⟩ => ⟨S5, .f32⟩
  | .hbm, ⟨36, _⟩ => ⟨S_, .f32⟩
  | .hbm, ⟨37, _⟩ => ⟨S5, .f32⟩
  | .hbm, ⟨38, _⟩ => ⟨S_, .f32⟩
  | .hbm, ⟨39, _⟩ => ⟨S5, .f32⟩
  | .hbm, ⟨40, _⟩ => ⟨S5, .f32⟩
  | .hbm, ⟨41, _⟩ => ⟨S_, .f32⟩
  | .hbm, ⟨42, _⟩ => ⟨S5, .f32⟩
  | .hbm, ⟨43, _⟩ => ⟨S5, .f32⟩
  | .hbm, ⟨44, _⟩ => ⟨S_, .f32⟩
  | .hbm, ⟨45, _⟩ => ⟨S5, .f32⟩
  | .hbm, ⟨46, _⟩ => ⟨S5, .f32⟩
  | .hbm, ⟨47, _⟩ => ⟨S_, .f32⟩
  | .hbm, ⟨48, _⟩ => ⟨S5, .f32⟩
  | .hbm, ⟨49, _⟩ => ⟨S5, .f32⟩
  | .hbm, ⟨50, _⟩ => ⟨S5, .f32⟩
  | .hbm, ⟨51, _⟩ => ⟨S_, .f32⟩
  | .hbm, ⟨52, _⟩ => ⟨S5, .f32⟩
  | .hbm, ⟨53, _⟩ => ⟨S5, .f32⟩
  | .hbm, ⟨54, _⟩ => ⟨S5, .f32⟩
  | .hbm, ⟨55, _⟩ => ⟨S_, .f32⟩
  | .hbm, ⟨56, _⟩ => ⟨S_, .f32⟩
  | _, _ => ⟨S4x10x5x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  transposes_S4x10x5x384x384_S4x5x10x384x384_0_2_1_3_4 : S4x10x5x384x384.Transposes [0, 2, 1, 3, 4] S4x5x10x384x384
  transposes_S4x10x1x384x384_S4x1x10x384x384_0_2_1_3_4 : S4x10x1x384x384.Transposes [0, 2, 1, 3, 4] S4x1x10x384x384
  bcast_S_S4x1x10x384x384 : S_.BroadcastsInDim S4x1x10x384x384 (![] : Fin 0 → Fin S4x1x10x384x384.rank)
  natLt_1_32 : 1 < 32
  shapeCasts_S5_S1x5x1x1x1 : S5.ShapeCasts S1x5x1x1x1
  bcast_S4x1x10x384x384_S4x5x10x384x384_0_1_2_3_4 : S4x1x10x384x384.BroadcastsInDim S4x5x10x384x384 (![0, 1, 2, 3, 4] : Fin 5 → Fin S4x5x10x384x384.rank)
  bcast_S1x5x1x1x1_S4x5x10x384x384_0_1_2_3_4 : S1x5x1x1x1.BroadcastsInDim S4x5x10x384x384 (![0, 1, 2, 3, 4] : Fin 5 → Fin S4x5x10x384x384.rank)
  reducesTo_S4x5x10x384x384_S5_d0_2_3_4 : S4x5x10x384x384.ReducesTo [0, 2, 3, 4] S5
  h_S_ : 0 < S_.numel
  bcast_S_S5 : S_.BroadcastsInDim S5 (![] : Fin 0 → Fin S5.rank)
  reducesTo_S5_S_d0 : S5.ReducesTo [0] S_

variable [Facts₀]

class Facts : Prop extends Facts₀ where

variable [Facts]
-- ==== Proof.Pieces.lean ====
/-
  What one grid point leaves in the three accumulators, read as values.

  At the first grid point the body stores zeros in each accumulator, reads them back and adds the block's partial sum; at
  every later point it adds the block's partial sum to what the point before left. Each accumulator is written by
  whole-block stores, so what it holds afterwards is the last store's value: the sum of what was read back and the
  block's partial sum (of the input block for the first accumulator, of the one-hot block for the second, of their
  product for the third).
-/
import proofs.«156772_j88115549045609_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A later grid point leaves in accumulator 2 what it held plus the block's partial sum. -/
theorem laterPoint_2 (c : Dev nD) (i : grid0.Coords) (a1 : Memref sig .tc .vmem S2x5x384x384 .f32) (h1 : a1.IsWhole)
    (a2 : Memref sig .tc .vmem S2x384x384 .f32) (h2 : a2.IsWhole) (a3 : Memref sig .tc .vmem S5x1 .f32) (h3 : a3.IsWhole)
    (a4 : Memref sig .tc .vmem S5x1 .f32) (h4 : a4.IsWhole) (a5 : Memref sig .tc .vmem S5x1 .f32) (h5 : a5.IsWhole)
    (hc : ¬cond0_0 i) (x0 : Vec F S2x5x384x384 .f32) (x1 : Vec F S2x384x384 .f32) (xo2 xo3 xo4 : Vec F S5x1 .f32) :
    out0_B_2 c i a1 h1 a2 h2 a3 h3 a4 h4 a5 h5 hc x0 x1 xo2 xo3 xo4 = k0_pay4 (k0_pay9 x0) xo2 := by
  unfold out0_B_2
  rw [View.read_writes_eq_canon _ _ _ (cover0_B_2 c i a1 h1 a2 h2 a3 h3 a4 h4 a5 h5 hc x0 x1 xo2 xo3 xo4)]
  unfold kernelRun0_B
  dsimp only
  sl_unfold_words
  rw [View.canon_unit_zero hz2]
  simp only [View.readAt_eq_ld, h1.read_unread, h2.read_unread, h3.read_unread, h4.read_unread, h5.read_unread,
    View.ld_unit_zero (S := S5x1) hz2, View.ld_unit_zero (S := S2x384x384) hz3, View.ld_unit_zero (S := S2x5x384x384) hz4]

/-- A later grid point leaves in accumulator 3 what it held plus the block's partial sum. -/
theorem laterPoint_3 (c : Dev nD) (i : grid0.Coords) (a1 : Memref sig .tc .vmem S2x5x384x384 .f32) (h1 : a1.IsWhole)
    (a2 : Memref sig .tc .vmem S2x384x384 .f32) (h2 : a2.IsWhole) (a3 : Memref sig .tc .vmem S5x1 .f32) (h3 : a3.IsWhole)
    (a4 : Memref sig .tc .vmem S5x1 .f32) (h4 : a4.IsWhole) (a5 : Memref sig .tc .vmem S5x1 .f32) (h5 : a5.IsWhole)
    (hc : ¬cond0_0 i) (x0 : Vec F S2x5x384x384 .f32) (x1 : Vec F S2x384x384 .f32) (xo2 xo3 xo4 : Vec F S5x1 .f32) :
    out0_B_3 c i a1 h1 a2 h2 a3 h3 a4 h4 a5 h5 hc x0 x1 xo2 xo3 xo4 = k0_pay5 (k0_pay10 x1) xo3 := by
  unfold out0_B_3
  rw [View.read_writes_eq_canon _ _ _ (cover0_B_3 c i a1 h1 a2 h2 a3 h3 a4 h4 a5 h5 hc x0 x1 xo2 xo3 xo4)]
  unfold kernelRun0_B
  dsimp only
  sl_unfold_words
  rw [View.canon_unit_zero hz2]
  simp only [View.readAt_eq_ld, h1.read_unread, h2.read_unread, h3.read_unread, h4.read_unread, h5.read_unread,
    View.ld_unit_zero (S := S5x1) hz2, View.ld_unit_zero (S := S2x384x384) hz3, View.ld_unit_zero (S := S2x5x384x384) hz4]

/-- A later grid point leaves in accumulator 4 what it held plus the block's partial sum. -/
theorem laterPoint_4 (c : Dev nD) (i : grid0.Coords) (a1 : Memref sig .tc .vmem S2x5x384x384 .f32) (h1 : a1.IsWhole)
    (a2 : Memref sig .tc .vmem S2x384x384 .f32) (h2 : a2.IsWhole) (a3 : Memref sig .tc .vmem S5x1 .f32) (h3 : a3.IsWhole)
    (a4 : Memref sig .tc .vmem S5x1 .f32) (h4 : a4.IsWhole) (a5 : Memref sig .tc .vmem S5x1 .f32) (h5 : a5.IsWhole)
    (hc : ¬cond0_0 i) (x0 : Vec F S2x5x384x384 .f32) (x1 : Vec F S2x384x384 .f32) (xo2 xo3 xo4 : Vec F S5x1 .f32) :
    out0_B_4 c i a1 h1 a2 h2 a3 h3 a4 h4 a5 h5 hc x0 x1 xo2 xo3 xo4 = k0_pay6 (k0_pay11 x0 x1) xo4 := by
  unfold out0_B_4
  rw [View.read_writes_eq_canon _ _ _ (cover0_B_4 c i a1 h1 a2 h2 a3 h3 a4 h4 a5 h5 hc x0 x1 xo2 xo3 xo4)]
  unfold kernelRun0_B
  dsimp only
  sl_unfold_words
  rw [View.canon_unit_zero hz2]
  simp only [View.readAt_eq_ld, h1.read_unread, h2.read_unread, h3.read_unread, h4.read_unread, h5.read_unread,
    View.ld_unit_zero (S := S5x1) hz2, View.ld_unit_zero (S := S2x384x384) hz3, View.ld_unit_zero (S := S2x5x384x384) hz4]

/-- The first grid point leaves in accumulator 2 the zeros it stored there plus the block's partial sum. -/
theorem firstPoint_2 (c : Dev nD) (i : grid0.Coords) (a1 : Memref sig .tc .vmem S2x5x384x384 .f32) (h1 : a1.IsWhole)
    (a2 : Memref sig .tc .vmem S2x384x384 .f32) (h2 : a2.IsWhole) (a3 : Memref sig .tc .vmem S5x1 .f32) (h3 : a3.IsWhole)
    (a4 : Memref sig .tc .vmem S5x1 .f32) (h4 : a4.IsWhole) (a5 : Memref sig .tc .vmem S5x1 .f32) (h5 : a5.IsWhole)
    (hc : cond0_0 i) (x0 : Vec F S2x5x384x384 .f32) (x1 : Vec F S2x384x384 .f32) :
    out0_A_2 c i a1 h1 a2 h2 a3 h3 a4 h4 a5 h5 hc x0 x1 = k0_pay4 (k0_pay9 x0) (k0_pay1 (F := F)) := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_cons_unit_zero (S := S5x1) hz2, View.readCov_unit_zero (S := S5x1) _ hz2]
  simp only [View.readAt_eq_ld, h1.read_unread, h2.read_unread, h3.read_unread, h4.read_unread, h5.read_unread,
    View.ld_unit_zero (S := S5x1) hz2, View.ld_unit_zero (S := S2x384x384) hz3, View.ld_unit_zero (S := S2x5x384x384) hz4]

/-- The first grid point leaves in accumulator 3 the zeros it stored there plus the block's partial sum. -/
theorem firstPoint_3 (c : Dev nD) (i : grid0.Coords) (a1 : Memref sig .tc .vmem S2x5x384x384 .f32) (h1 : a1.IsWhole)
    (a2 : Memref sig .tc .vmem S2x384x384 .f32) (h2 : a2.IsWhole) (a3 : Memref sig .tc .vmem S5x1 .f32) (h3 : a3.IsWhole)
    (a4 : Memref sig .tc .vmem S5x1 .f32) (h4 : a4.IsWhole) (a5 : Memref sig .tc .vmem S5x1 .f32) (h5 : a5.IsWhole)
    (hc : cond0_0 i) (x0 : Vec F S2x5x384x384 .f32) (x1 : Vec F S2x384x384 .f32) :
    out0_A_3 c i a1 h1 a2 h2 a3 h3 a4 h4 a5 h5 hc x0 x1 = k0_pay5 (k0_pay10 x1) (k0_pay2 (F := F)) := by
  unfold out0_A_3
  rw [View.read_writes_eq_canon _ _ _ (cover0_A_3 c i a1 h1 a2 h2 a3 h3 a4 h4 a5 h5 hc x0 x1)]
  unfold kernelRun0_A
  dsimp only
  sl_unfold_words
  rw [View.canon_cons_unit_zero (S := S5x1) hz2, View.readCov_unit_zero (S := S5x1) _ hz2]
  simp only [View.readAt_eq_ld, h1.read_unread, h2.read_unread, h3.read_unread, h4.read_unread, h5.read_unread,
    View.ld_unit_zero (S := S5x1) hz2, View.ld_unit_zero (S := S2x384x384) hz3, View.ld_unit_zero (S := S2x5x384x384) hz4]

/-- The first grid point leaves in accumulator 4 the zeros it stored there plus the block's partial sum. -/
theorem firstPoint_4 (c : Dev nD) (i : grid0.Coords) (a1 : Memref sig .tc .vmem S2x5x384x384 .f32) (h1 : a1.IsWhole)
    (a2 : Memref sig .tc .vmem S2x384x384 .f32) (h2 : a2.IsWhole) (a3 : Memref sig .tc .vmem S5x1 .f32) (h3 : a3.IsWhole)
    (a4 : Memref sig .tc .vmem S5x1 .f32) (h4 : a4.IsWhole) (a5 : Memref sig .tc .vmem S5x1 .f32) (h5 : a5.IsWhole)
    (hc : cond0_0 i) (x0 : Vec F S2x5x384x384 .f32) (x1 : Vec F S2x384x384 .f32) :
    out0_A_4 c i a1 h1 a2 h2 a3 h3 a4 h4 a5 h5 hc x0 x1 = k0_pay6 (k0_pay11 x0 x1) (k0_pay3 (F := F)) := by
  unfold out0_A_4
  rw [View.read_writes_eq_canon _ _ _ (cover0_A_4 c i a1 h1 a2 h2 a3 h3 a4 h4 a5 h5 hc x0 x1)]
  unfold kernelRun0_A
  dsimp only
  sl_unfold_words
  rw [View.canon_cons_unit_zero (S := S5x1) hz2, View.readCov_unit_zero (S := S5x1) _ hz2]
  simp only [View.readAt_eq_ld, h1.read_unread, h2.read_unread, h3.read_unread, h4.read_unread, h5.read_unread,
    View.ld_unit_zero (S := S5x1) hz2, View.ld_unit_zero (S := S2x384x384) hz3, View.ld_unit_zero (S := S2x5x384x384) hz4]

end Cert.KernelIdeal.Pieces

end
-- ==== Proof.Spec.lean ====
/-
  The quantities both programs compute, stated once.

  * `bin v` is the class of an intensity `v`: the number of the thresholds 0.25, 0.375, 0.5, 0.625 that are `≤ v`, counted
    in 32-bit words as both programs do.
  * `hot v c` is the one-hot indicator: `1` when the class of `v` is `c`, else `0`. One program converts the comparison
    bit directly, the other widens it to 32 bits first and converts it as a signed word; a single bit widened by zeros
    is the same number either way (`signed_widen`).
  * `dice I SX SOH w` is the shared ending: `∑_c w_c · (1 − (2·I_c + ε) / ((SX_c + SOH_c) + ε))` from the per-class
    intersection `I`, input total `SX` and one-hot total `SOH`.
-/
import Idealize.ShloMosaic.Lib.ValueIdx
import Idealize.ShloMosaic.PureOps.Ideal.Laws

noncomputable section

namespace Cert.Dice

open Idealize.ShloMosaic Idealize.ShloMosaic.ValueIdx

/-- The class of an intensity: how many of the four thresholds it reaches. -/
def bin (v : Ideal .f32) : BitVec 32 :=
  IntOp.addi (IntOp.addi (IntOp.addi (IntOp.addi 0#32
    ((FloatOps.cmpf .oge v (Ideal.ofBits .f32 0x3E800000#32 : Ideal .f32)).setWidth 32))
    ((FloatOps.cmpf .oge v (Ideal.ofBits .f32 0x3EC00000#32 : Ideal .f32)).setWidth 32))
    ((FloatOps.cmpf .oge v (Ideal.ofBits .f32 0x3F000000#32 : Ideal .f32)).setWidth 32))
    ((FloatOps.cmpf .oge v (Ideal.ofBits .f32 0x3F200000#32 : Ideal .f32)).setWidth 32)

/-- The one-hot indicator of class `c` at an intensity. -/
def hot (v : Ideal .f32) (c : ℕ) : Ideal .f32 :=
  FloatOps.uitofp (F := Ideal) .f32 (IntOp.cmpi .eq (bin v) (BitVec.ofNat 32 c))

/-- One bit widened to 32 bits and read as a signed word is the bit read as an unsigned number. -/
theorem signed_widen (b : BitVec 1) :
    FloatOps.sitofp (F := Ideal) .f32 (b.setWidth 32) = FloatOps.uitofp (F := Ideal) .f32 b := by
  have h : (b.setWidth 32).toInt = (b.toNat : ℤ) := by
    rcases BitVec.eq_zero_or_eq_one b with h | h <;> subst h <;> decide
  show (((b.setWidth 32).toInt : ℝ) : EReal) = (((b.toNat : ℕ) : ℝ) : EReal)
  rw [h, Int.cast_natCast]

abbrev C5 : Shape := ⟨1, ![5]⟩
abbrev C0 : Shape := ⟨0, ![]⟩

/-- The shared ending: the weighted sum over the five classes of one minus the smoothed dice ratio. -/
def dice (hb : C0.BroadcastsInDim C5 (![] : Fin 0 → Fin C5.rank)) (hr : C5.ReducesTo [0] C0) (h0 : 0 < C0.numel)
    (I SX SOH w : FVec Ideal C5 .f32) : FVec Ideal C0 .f32 :=
  Host.reduceAdd (F := Ideal)
    (mulf w (subf (broadcastInDim C5 ![] hb (constant (F := Ideal) C0 .f32 0x3F800000#32))
      (Host.divf (F := Ideal)
        (addf (mulf (broadcastInDim C5 ![] hb (constant (F := Ideal) C0 .f32 0x40000000#32)) I)
          (broadcastInDim C5 ![] hb (constant (F := Ideal) C0 .f32 0x3727C5AC#32)))
        (addf (addf SX SOH) (broadcastInDim C5 ![] hb (constant (F := Ideal) C0 .f32 0x3727C5AC#32))))))
    (constant (F := Ideal) C0 .f32 0x00000000#32) hr h0

end Cert.Dice

end
-- ==== Proof.Block.lean ====
/-
  One block's partial sums, read at a class.

  A block holds two slabs of the input, [2, 5, 384, 384], and of the intensities, [2, 384, 384]. The body sums a
  [2, 5, 384, 384] value over lanes, then over the two slabs, then over rows, leaving a [5, 1] column: at class `c` the
  sum over (row, slab, lane) of the value at (slab, c, row, lane) (`red3_apply`). The value summed is the input block
  itself, the one-hot block — at (slab, c, row, lane) the indicator that the intensity at (slab, row, lane) has class
  `c` (`onehot_apply`) — or their product.
-/
import proofs.«156772_j88115549045609_2_alg».proof.Proof.Gen.KernelIdeal.Skeleton
import proofs.«156772_j88115549045609_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Block

open Cert.KernelIdeal Cert.KernelIdeal.Gen Cert.Dice
open scoped BigOperators

/-- Lanes, then slabs, then rows: the three nested sums at class `c` are one sum over (row, slab, lane). -/
theorem red3_apply (v : FVec Ideal S2x5x384x384 .f32) (h3 : S2x5x384x384.Reduces [3] S2x5x384)
    (hc : S2x5x384.ShapeCasts S2x5x384x1) (h0 : S2x5x384x1.Reduces [0] S5x384x1) (h1 : S5x384x1.Reduces [1] S5x1)
    (hφ : FKind.Formats .f32) (ha3 ha0 ha1 : (0x00000000#32 : BitVec 32) = FKind.add.neutral .f32 hφ) (c : Fin 5) :
    multiReduction .add [1] S5x1 (multiReduction .add [0] S5x384x1
        (shapeCast S2x5x384x1 (multiReduction .add [3] S2x5x384 v 0x00000000#32 h3 hφ ha3) hc) 0x00000000#32 h0 hφ ha0)
        0x00000000#32 h1 hφ ha1 (ix2 c (0 : Fin 1))
      = ∑ h : Fin 384, ∑ tb : Fin 2, ∑ w : Fin 384, v (ix4 tb c h w) := by
  refine (Ideal.multiReduction_add_single _ _ h1 hφ ha1 (ix2 c (0 : Fin 1))).trans ?_
  show ∑ h : Fin 384, _ = _
  refine Finset.sum_congr rfl fun h _ => ?_
  have e1 : h1.lift (ix2 c (0 : Fin 1)) h = ix3 c h (0 : Fin 1) :=
    funext fun a => Fin.ext (by match a with | ⟨0, _⟩ => rfl | ⟨1, _⟩ => rfl | ⟨2, _⟩ => rfl)
  rw [e1]
  refine (Ideal.multiReduction_add_single _ _ h0 hφ ha0 (ix3 c h (0 : Fin 1))).trans ?_
  show ∑ tb : Fin 2, _ = _
  refine Finset.sum_congr rfl fun tb _ => ?_
  have e0 : h0.lift (ix3 c h (0 : Fin 1)) tb = ix4 tb c h (0 : Fin 1) :=
    funext fun a => Fin.ext (by match a with | ⟨0, _⟩ => rfl | ⟨1, _⟩ => rfl | ⟨2, _⟩ => rfl | ⟨3, _⟩ => rfl)
  rw [e0, shapeCast_apply _ hc (ix4 tb c h (0 : Fin 1)) (ix3 tb c h) (by
    rw [Shape.rowMajor_val_three, Shape.rowMajor_val_four]
    show (tb.val * 5 + c.val) * 384 + h.val = ((tb.val * 5 + c.val) * 384 + h.val) * 1 + 0
    omega)]
  refine (Ideal.multiReduction_add_single v _ h3 hφ ha3 (ix3 tb c h)).trans ?_
  show ∑ w : Fin 384, _ = _
  refine Finset.sum_congr rfl fun w _ => ?_
  have e3 : h3.lift (ix3 tb c h) w = ix4 tb c h w :=
    funext fun a => Fin.ext (by match a with | ⟨0, _⟩ => rfl | ⟨1, _⟩ => rfl | ⟨2, _⟩ => rfl | ⟨3, _⟩ => rfl)
  rw [e3]

/-- The one-hot block at (slab, c, row, lane): the indicator that the intensity at (slab, row, lane) has class `c`. -/
theorem onehot_apply (x1 : Vec Ideal S2x384x384 .f32) (tb : Fin 2) (c : Fin 5) (h w : Fin 384) :
    k0_pay8 (F := Ideal) x1 (ix4 tb c h w) = hot (x1 (ix3 tb h w)) c.val := by
  unfold k0_pay8
  rw [sitofp_apply, extui_apply]
  refine (signed_widen _).trans ?_
  unfold hot
  refine congrArg (FloatOps.uitofp (F := Ideal) .f32) ?_
  show IntOp.cmpi .eq _ _ = IntOp.cmpi .eq _ _
  refine congrArg₂ (IntOp.cmpi .eq) ?_ ?_
  · rw [broadcastTo_apply _ _ (ix4 tb c h w) (ix4 tb (0 : Fin 1) h w) (fun a => by
      match a with
      | ⟨0, _⟩ => show tb.val = if (2 : Nat) = 1 then 0 else tb.val; rw [if_neg (by decide)]
      | ⟨1, _⟩ => show 0 = if (1 : Nat) = 1 then 0 else c.val; rw [if_pos rfl]
      | ⟨2, _⟩ => show h.val = if (384 : Nat) = 1 then 0 else h.val; rw [if_neg (by decide)]
      | ⟨3, _⟩ => show w.val = if (384 : Nat) = 1 then 0 else w.val; rw [if_neg (by decide)]),
      shapeCast_self,
      shapeCast_apply _ _ (ix4 tb (0 : Fin 1) h w) (ix3 tb h w) (by
        rw [Shape.rowMajor_val_three, Shape.rowMajor_val_four]
        show (tb.val * 384 + h.val) * 384 + w.val = ((tb.val * 1 + 0) * 384 + h.val) * 384 + w.val
        omega)]
    rw [shapeCast_self]
    rfl
  · exact iota_single_apply .tc S2x5x384x384 32 (1 : Fin 4) _ (ix4 tb c h w)

/-- The zeros the first grid point stores are the extended real zero. -/
theorem zero1 (j : S5x1.Idx) : k0_pay1 (F := Ideal) j = 0 := by
  unfold k0_pay1; exact Ideal.ofBits_zero_f32
theorem zero2 (j : S5x1.Idx) : k0_pay2 (F := Ideal) j = 0 := by
  unfold k0_pay2; exact Ideal.ofBits_zero_f32
theorem zero3 (j : S5x1.Idx) : k0_pay3 (F := Ideal) j = 0 := by
  unfold k0_pay3; exact Ideal.ofBits_zero_f32

/-- The stored value of the first two accumulators: what was read back plus the block's partial sum. -/
theorem add4 (v32 : FVec Ideal S5x1 .f32) (v44 : Vec Ideal S5x1 .f32) (j : S5x1.Idx) :
    k0_pay4 v32 v44 j = v44 j + v32 j := by
  unfold k0_pay4; rw [addf_apply, shapeCast_self]
theorem add5 (v36 : FVec Ideal S5x1 .f32) (v48 : Vec Ideal S5x1 .f32) (j : S5x1.Idx) :
    k0_pay5 v36 v48 j = v48 j + v36 j := by
  unfold k0_pay5; rw [addf_apply, shapeCast_self]

/-- The input block's partial sum at class `c`, when the block's entries are the slabs `2·s`, `2·s + 1` of `g`. -/
theorem sumX_of (x0 : Vec Ideal S2x5x384x384 .f32) (c : Fin 5) (g : ℕ → Fin 384 → Fin 384 → EReal) (s : ℕ)
    (hx : ∀ (tb : Fin 2) (h w : Fin 384), x0 (ix4 tb c h w) = g (2 * s + tb.val) h w) :
    k0_pay9 (F := Ideal) x0 (ix2 c (0 : Fin 1))
      = ∑ h : Fin 384, ∑ tb : Fin 2, ∑ w : Fin 384, g (2 * s + tb.val) h w := by
  unfold k0_pay9 k0_pay7
  refine (red3_apply _ _ _ _ _ _ _ _ _ c).trans ?_
  rw [shapeCast_self]
  exact Finset.sum_congr rfl fun h _ => Finset.sum_congr rfl fun tb _ => Finset.sum_congr rfl fun w _ => hx tb h w

/-- The one-hot block's partial sum at class `c`. -/
theorem sumO_of (x1 : Vec Ideal S2x384x384 .f32) (c : Fin 5) (g : ℕ → Fin 384 → Fin 384 → EReal) (s : ℕ)
    (hy : ∀ (tb : Fin 2) (h w : Fin 384), x1 (ix3 tb h w) = g (2 * s + tb.val) h w) :
    k0_pay10 (F := Ideal) x1 (ix2 c (0 : Fin 1))
      = ∑ h : Fin 384, ∑ tb : Fin 2, ∑ w : Fin 384, hot (g (2 * s + tb.val) h w) c.val := by
  unfold k0_pay10
  refine (red3_apply _ _ _ _ _ _ _ _ _ c).trans ?_
  exact Finset.sum_congr rfl fun h _ => Finset.sum_congr rfl fun tb _ => Finset.sum_congr rfl fun w _ => by
    rw [onehot_apply, hy tb h w]

/-- The third accumulator's stored value at class `c`: what was read back plus the partial sum of the products. -/
theorem sumI_of (x0 : Vec Ideal S2x5x384x384 .f32) (x1 : Vec Ideal S2x384x384 .f32) (xo : Vec Ideal S5x1 .f32) (c : Fin 5)
    (g g' : ℕ → Fin 384 → Fin 384 → EReal) (s : ℕ)
    (hx : ∀ (tb : Fin 2) (h w : Fin 384), x0 (ix4 tb c h w) = g (2 * s + tb.val) h w)
    (hy : ∀ (tb : Fin 2) (h w : Fin 384), x1 (ix3 tb h w) = g' (2 * s + tb.val) h w) :
    k0_pay6 (F := Ideal) (k0_pay11 x0 x1) xo (ix2 c (0 : Fin 1))
      = xo (ix2 c (0 : Fin 1))
        + ∑ h : Fin 384, ∑ tb : Fin 2, ∑ w : Fin 384, g (2 * s + tb.val) h w * hot (g' (2 * s + tb.val) h w) c.val := by
  unfold k0_pay6 k0_pay11
  rw [addf_apply, shapeCast_self]
  refine congrArg (xo (ix2 c (0 : Fin 1)) + ·) ?_
  refine (red3_apply _ _ _ _ _ _ _ _ _ c).trans ?_
  exact Finset.sum_congr rfl fun h _ => Finset.sum_congr rfl fun tb _ => Finset.sum_congr rfl fun w _ => by
    rw [mulf_apply, onehot_apply, hy tb h w]
    unfold k0_pay7
    rw [shapeCast_self, hx tb h w]

end Cert.KernelIdeal.Block

end
-- ==== Proof.LibAxisSums.lean ====
/-
  Sums along all axes but one, and a total accumulated block by block.

  * `run b n` is the total a block accumulator holds after block `n` when it is reset to `0 + b 0` at the first block
    and every later block adds its own contribution: the plain sum of the contributions up to `n` (`run_eq`). It holds
    in every commutative additive monoid.
  * A sum over a rank-5 index set is the fivefold sum over the coordinates (`sum_idx5`, the second coordinate innermost).
  * A host reduction of a rank-5 array [a, b, c, d, e] over every axis but the second gives, at channel `j`, the initial
    value plus the sum of `x (i0, j, i2, i3, i4)` over the four other coordinates (`hostReduceAdd_keep1`): the indices
    that drop to `j` are exactly those whose second coordinate is `j`. Stated for the extended reals' sum the host
    reduction denotes at the ideal values.
-/
import Idealize.ShloMosaic.Lib.ValueIdx
import Idealize.ShloMosaic.PureOps.Ideal.Laws

noncomputable section

namespace Cert.Lib.AxisSums

open Idealize.ShloMosaic Idealize.ShloMosaic.ValueIdx
open scoped BigOperators
/-- The accumulator's contents after block `n`: reset to `0 + b 0`, then one contribution added per block. -/
def run {M : Type*} [AddCommMonoid M] (b : ℕ → M) : ℕ → M
  | 0 => 0 + b 0
  | n + 1 => run b n + b (n + 1)

/-- It is the sum of the contributions of blocks `0 … n`. -/
theorem run_eq {M : Type*} [AddCommMonoid M] (b : ℕ → M) (n : ℕ) : run b n = ∑ s ∈ Finset.range (n + 1), b s := by
  induction n with
  | zero => rw [run, zero_add, Finset.sum_range_one]
  | succ n ih => rw [run, ih, Finset.sum_range_succ _ (n + 1)]

/-- A rank-5 index set as the product of its coordinate ranges, the second coordinate listed last. -/
def idxEquiv5 {n0 n1 n2 n3 n4 : Nat} :
    (⟨5, ![n0, n1, n2, n3, n4]⟩ : Shape).Idx ≃ Fin n0 × Fin n2 × Fin n3 × Fin n4 × Fin n1 where
  toFun i := (i 0, i 2, i 3, i 4, i 1)
  invFun p := ix5 p.1 p.2.2.2.2 p.2.1 p.2.2.1 p.2.2.2.1
  left_inv i := (eq_ix5 i).symm
  right_inv _ := rfl

/-- A sum over a rank-5 index set is the fivefold sum over the coordinates, the second coordinate innermost. -/
theorem sum_idx5 {M : Type*} [AddCommMonoid M] {n0 n1 n2 n3 n4 : Nat} (f : (⟨5, ![n0, n1, n2, n3, n4]⟩ : Shape).Idx → M) :
    ∑ i, f i = ∑ a : Fin n0, ∑ c : Fin n2, ∑ d : Fin n3, ∑ e : Fin n4, ∑ b : Fin n1, f (ix5 a b c d e) := by
  rw [← Equiv.sum_comp (idxEquiv5 (n0 := n0) (n1 := n1) (n2 := n2) (n3 := n3) (n4 := n4)).symm f, Fintype.sum_prod_type]
  simp only [Fintype.sum_prod_type]
  rfl

/-- The host's sum over every axis but the second of a rank-5 array, at a channel: the initial value plus the sum
    over the four other coordinates. -/
theorem hostReduceAdd_keep1 {a b c d e : Nat}
    (h : (⟨5, ![a, b, c, d, e]⟩ : Shape).ReducesTo [0, 2, 3, 4] ⟨1, ![b]⟩) (x : (⟨5, ![a, b, c, d, e]⟩ : Shape).Idx → EReal)
    (init : EReal) (j : Fin b) :
    Ideal.hostReduceAdd h x init (ix1 j)
      = init + ∑ i0 : Fin a, ∑ i2 : Fin c, ∑ i3 : Fin d, ∑ i4 : Fin e, x (ix5 i0 j i2 i3 i4) := by
  unfold Ideal.hostReduceAdd
  congr 1
  rw [Finset.sum_filter, sum_idx5]
  refine Finset.sum_congr rfl fun i0 _ => Finset.sum_congr rfl fun i2 _ => Finset.sum_congr rfl fun i3 _ =>
    Finset.sum_congr rfl fun i4 _ => ?_
  have hk : (⟨5, ![a, b, c, d, e]⟩ : Shape).kept [0, 2, 3, 4] = [(1 : Fin 5)] := by
    unfold Shape.kept; rfl
  have hb : ((0 : Fin 1) : ℕ) < ((⟨5, ![a, b, c, d, e]⟩ : Shape).kept [0, 2, 3, 4]).length := by rw [hk]; simp
  have hc : ((⟨5, ![a, b, c, d, e]⟩ : Shape).kept [0, 2, 3, 4])[((0 : Fin 1) : ℕ)] = (1 : Fin 5) := by simp [hk]
  have key : ∀ i1 : Fin b, (h.drop (ix5 i0 i1 i2 i3 i4) = ix1 j) ↔ i1 = j := by
    intro i1
    constructor
    · intro e'
      have e0 : ((h.drop (ix5 i0 i1 i2 i3 i4) (0 : Fin 1) : Fin b) : ℕ) = ((ix1 j) (0 : Fin 1) : Fin b).val :=
        congrArg (fun f : (⟨1, ![b]⟩ : Shape).Idx => ((f (0 : Fin 1) : Fin b) : ℕ)) e'
      rw [Shape.ReducesTo.drop_apply_val_of_eq h _ (0 : Fin 1) (1 : Fin 5) hb hc] at e0
      exact Fin.ext e0
    · rintro rfl
      funext q
      have hq : q = (0 : Fin 1) := Subsingleton.elim (α := Fin 1) _ _
      subst hq
      exact Fin.ext (Shape.ReducesTo.drop_apply_val_of_eq h _ (0 : Fin 1) (1 : Fin 5) hb hc)
  simp only [key, Finset.sum_ite_eq', Finset.mem_univ, if_true]

end Cert.Lib.AxisSums

end
-- ==== Proof.Fold.lean ====
/-
  The three accumulators after every grid point, and the arrays they are written back to.

  The region finds the input reshaped to forty slabs [40, 5, 384, 384] and the intensities to [40, 384, 384]; grid point
  `s` reads slabs `2·s` and `2·s + 1`. After point `n` each accumulator holds, at class `c`, the running total of the
  partial sums of the blocks `0 … n` (induction on the point). The accumulators are written back once, after the last
  point, and their [5, 1] block is the whole array.
-/
import proofs.«156772_j88115549045609_2_alg».proof.Proof.Gen.KernelIdeal.Frame
import proofs.«156772_j88115549045609_2_alg».proof.Proof.Pieces
import proofs.«156772_j88115549045609_2_alg».proof.Proof.Block
import proofs.«156772_j88115549045609_2_alg».proof.Proof.LibAxisSums
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.Dice Cert.Lib.AxisSums
open scoped BigOperators

variable (m : (ℓ : Loc nD τ sig) → Buf (Elt Ideal) ℓ) (ρ : Dev nD → PrngReg)

/-- Slab `p` of the reshaped input at class `cc`, row `h`, lane `w` (zero past the forty slabs). -/
def slabX (c : Dev nD) (cc : Fin 5) (p : ℕ) (h w : Fin 384) : EReal :=
  if hp : p < 40 then (V m c main_v0 : S40x5x384x384.Idx → EReal) (ix4 ⟨p, hp⟩ cc h w) else 0

/-- Slab `p` of the reshaped intensities at row `h`, lane `w` (zero past the forty slabs). -/
def slabT (c : Dev nD) (p : ℕ) (h w : Fin 384) : EReal :=
  if hp : p < 40 then (V m c main_v1 : S40x384x384.Idx → EReal) (ix3 ⟨p, hp⟩ h w) else 0

/-- The windows' index maps: block `t` of either input starts at slab `t` (in blocks of two slabs). -/
theorem index0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, win0_0.index t (0 : Fin 4) = t.val ∧ win0_0.index t (1 : Fin 4) = 0
    ∧ win0_0.index t (2 : Fin 4) = 0 ∧ win0_0.index t (3 : Fin 4) = 0)
theorem index1 : ∀ t : Fin cfg0.N, win0_1.index t (0 : Fin 3) = t.val ∧ win0_1.index t (1 : Fin 3) = 0
    ∧ win0_1.index t (2 : Fin 3) = 0 :=
  (by decide +kernel : ∀ t : Fin grid0.N, win0_1.index t (0 : Fin 3) = t.val ∧ win0_1.index t (1 : Fin 3) = 0
    ∧ win0_1.index t (2 : Fin 3) = 0)

/-- The input block at point `t` holds slabs `2·t` and `2·t + 1`. -/
theorem blockX (c : Dev nD) (t : Fin cfg0.N) (cc : Fin 5) (tb : Fin 2) (h w : Fin 384) :
    (iblk m c 0 t : Vec Ideal S2x5x384x384 .f32) (ix4 tb cc h w) = slabX m c cc (2 * t.val + tb.val) h w := by
  have hN : t.val < 20 := lt_of_lt_of_eq t.isLt (show cfg0.N = 20 from N_0)
  have hp : 2 * t.val + tb.val < 40 := by have := tb.isLt; omega
  unfold slabX
  rw [dif_pos hp]
  unfold iblk
  rw [View.read_apply]
  show V m c main_v0 _ = V m c main_v0 _
  congr 1
  funext a
  apply Fin.ext
  obtain ⟨i0, i1, i2, i3⟩ := index0 t
  match a with
  | ⟨0, _⟩ => show win0_0.index t 0 * 2 + 1 * tb.val = 2 * t.val + tb.val; rw [i0]; omega
  | ⟨1, _⟩ => show win0_0.index t 1 * 5 + 1 * cc.val = cc.val; rw [i1]; omega
  | ⟨2, _⟩ => show win0_0.index t 2 * 384 + 1 * h.val = h.val; rw [i2]; omega
  | ⟨3, _⟩ => show win0_0.index t 3 * 384 + 1 * w.val = w.val; rw [i3]; omega

/-- The intensity block at point `t` holds slabs `2·t` and `2·t + 1`. -/
theorem blockT (c : Dev nD) (t : Fin cfg0.N) (tb : Fin 2) (h w : Fin 384) :
    (iblk m c 1 t : Vec Ideal S2x384x384 .f32) (ix3 tb h w) = slabT m c (2 * t.val + tb.val) h w := by
  have hN : t.val < 20 := lt_of_lt_of_eq t.isLt (show cfg0.N = 20 from N_0)
  have hp : 2 * t.val + tb.val < 40 := by have := tb.isLt; omega
  unfold slabT
  rw [dif_pos hp]
  unfold iblk
  rw [View.read_apply]
  show V m c main_v1 _ = V m c main_v1 _
  congr 1
  funext a
  apply Fin.ext
  obtain ⟨i0, i1, i2⟩ := index1 t
  match a with
  | ⟨0, _⟩ => show win0_1.index t 0 * 2 + 1 * tb.val = 2 * t.val + tb.val; rw [i0]; omega
  | ⟨1, _⟩ => show win0_1.index t 1 * 384 + 1 * h.val = h.val; rw [i1]; omega
  | ⟨2, _⟩ => show win0_1.index t 2 * 384 + 1 * w.val = w.val; rw [i2]; omega

/-! ## One grid point -/

theorem notFirst (n : ℕ) (h : n + 1 < cfg0.N) : ¬(⟨n + 1, h⟩ : Fin cfg0.N).val % 20 = 0 := by
  have hN : n + 1 < 20 := lt_of_lt_of_eq h (show cfg0.N = 20 from N_0)
  show ¬(n + 1) % 20 = 0
  omega

/-- After the first point: zeros plus the first block's partial sums. -/
theorem first2 (c : Dev nD) (h0 : 0 < cfg0.N) :
    (outsAt0 m c 0 h0).1 = k0_pay4 (k0_pay9 (iblk m c 0 ⟨0, h0⟩)) (k0_pay1 (F := Ideal)) :=
  (congrArg Prod.fst (outsAt0_A m c ⟨0, h0⟩ rfl)).trans
    (Pieces.firstPoint_2 c (grid0.coords (⟨0, h0⟩ : Fin cfg0.N)) (ms0_0 (⟨0, h0⟩ : Fin cfg0.N)) (hs0_0 (⟨0, h0⟩ : Fin cfg0.N)) (ms0_1 (⟨0, h0⟩ : Fin cfg0.N)) (hs0_1 (⟨0, h0⟩ : Fin cfg0.N)) (ms0_2 (⟨0, h0⟩ : Fin cfg0.N)) (hs0_2 (⟨0, h0⟩ : Fin cfg0.N)) (ms0_3 (⟨0, h0⟩ : Fin cfg0.N)) (hs0_3 (⟨0, h0⟩ : Fin cfg0.N)) (ms0_4 (⟨0, h0⟩ : Fin cfg0.N)) (hs0_4 (⟨0, h0⟩ : Fin cfg0.N)) ((hcond0_0 (⟨0, h0⟩ : Fin cfg0.N)).mpr rfl) (iblk m c 0 ⟨0, h0⟩) (iblk m c 1 ⟨0, h0⟩))
theorem first3 (c : Dev nD) (h0 : 0 < cfg0.N) :
    (outsAt0 m c 0 h0).2.1 = k0_pay5 (k0_pay10 (iblk m c 1 ⟨0, h0⟩)) (k0_pay2 (F := Ideal)) :=
  (congrArg (fun p => p.2.1) (outsAt0_A m c ⟨0, h0⟩ rfl)).trans
    (Pieces.firstPoint_3 c (grid0.coords (⟨0, h0⟩ : Fin cfg0.N)) (ms0_0 (⟨0, h0⟩ : Fin cfg0.N)) (hs0_0 (⟨0, h0⟩ : Fin cfg0.N)) (ms0_1 (⟨0, h0⟩ : Fin cfg0.N)) (hs0_1 (⟨0, h0⟩ : Fin cfg0.N)) (ms0_2 (⟨0, h0⟩ : Fin cfg0.N)) (hs0_2 (⟨0, h0⟩ : Fin cfg0.N)) (ms0_3 (⟨0, h0⟩ : Fin cfg0.N)) (hs0_3 (⟨0, h0⟩ : Fin cfg0.N)) (ms0_4 (⟨0, h0⟩ : Fin cfg0.N)) (hs0_4 (⟨0, h0⟩ : Fin cfg0.N)) ((hcond0_0 (⟨0, h0⟩ : Fin cfg0.N)).mpr rfl) (iblk m c 0 ⟨0, h0⟩) (iblk m c 1 ⟨0, h0⟩))
theorem first4 (c : Dev nD) (h0 : 0 < cfg0.N) :
    (outsAt0 m c 0 h0).2.2 = k0_pay6 (k0_pay11 (iblk m c 0 ⟨0, h0⟩) (iblk m c 1 ⟨0, h0⟩)) (k0_pay3 (F := Ideal)) :=
  (congrArg (fun p => p.2.2) (outsAt0_A m c ⟨0, h0⟩ rfl)).trans
    (Pieces.firstPoint_4 c (grid0.coords (⟨0, h0⟩ : Fin cfg0.N)) (ms0_0 (⟨0, h0⟩ : Fin cfg0.N)) (hs0_0 (⟨0, h0⟩ : Fin cfg0.N)) (ms0_1 (⟨0, h0⟩ : Fin cfg0.N)) (hs0_1 (⟨0, h0⟩ : Fin cfg0.N)) (ms0_2 (⟨0, h0⟩ : Fin cfg0.N)) (hs0_2 (⟨0, h0⟩ : Fin cfg0.N)) (ms0_3 (⟨0, h0⟩ : Fin cfg0.N)) (hs0_3 (⟨0, h0⟩ : Fin cfg0.N)) (ms0_4 (⟨0, h0⟩ : Fin cfg0.N)) (hs0_4 (⟨0, h0⟩ : Fin cfg0.N)) ((hcond0_0 (⟨0, h0⟩ : Fin cfg0.N)).mpr rfl) (iblk m c 0 ⟨0, h0⟩) (iblk m c 1 ⟨0, h0⟩))

/-- After a later point: what the point before left plus this block's partial sums. -/
theorem later2 (c : Dev nD) (n : ℕ) (h : n + 1 < cfg0.N) :
    (outsAt0 m c (n + 1) h).1
      = k0_pay4 (k0_pay9 (iblk m c 0 ⟨n + 1, h⟩)) (outsAt0 m c n (Nat.lt_of_succ_lt h)).1 :=
  (congrArg Prod.fst (outsAt0_B m c ⟨n + 1, h⟩ (notFirst n h))).trans
    (Pieces.laterPoint_2 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (fun hh => notFirst n h ((hcond0_0 (⟨n + 1, h⟩ : Fin cfg0.N)).mp hh)) (iblk m c 0 ⟨n + 1, h⟩) (iblk m c 1 ⟨n + 1, h⟩)
      (outsAt0 m c n (Nat.lt_of_succ_lt h)).1 (outsAt0 m c n (Nat.lt_of_succ_lt h)).2.1 (outsAt0 m c n (Nat.lt_of_succ_lt h)).2.2)
theorem later3 (c : Dev nD) (n : ℕ) (h : n + 1 < cfg0.N) :
    (outsAt0 m c (n + 1) h).2.1
      = k0_pay5 (k0_pay10 (iblk m c 1 ⟨n + 1, h⟩)) (outsAt0 m c n (Nat.lt_of_succ_lt h)).2.1 :=
  (congrArg (fun p => p.2.1) (outsAt0_B m c ⟨n + 1, h⟩ (notFirst n h))).trans
    (Pieces.laterPoint_3 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (fun hh => notFirst n h ((hcond0_0 (⟨n + 1, h⟩ : Fin cfg0.N)).mp hh)) (iblk m c 0 ⟨n + 1, h⟩) (iblk m c 1 ⟨n + 1, h⟩)
      (outsAt0 m c n (Nat.lt_of_succ_lt h)).1 (outsAt0 m c n (Nat.lt_of_succ_lt h)).2.1 (outsAt0 m c n (Nat.lt_of_succ_lt h)).2.2)
theorem later4 (c : Dev nD) (n : ℕ) (h : n + 1 < cfg0.N) :
    (outsAt0 m c (n + 1) h).2.2
      = k0_pay6 (k0_pay11 (iblk m c 0 ⟨n + 1, h⟩) (iblk m c 1 ⟨n + 1, h⟩)) (outsAt0 m c n (Nat.lt_of_succ_lt h)).2.2 :=
  (congrArg (fun p => p.2.2) (outsAt0_B m c ⟨n + 1, h⟩ (notFirst n h))).trans
    (Pieces.laterPoint_4 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (fun hh => notFirst n h ((hcond0_0 (⟨n + 1, h⟩ : Fin cfg0.N)).mp hh)) (iblk m c 0 ⟨n + 1, h⟩) (iblk m c 1 ⟨n + 1, h⟩)
      (outsAt0 m c n (Nat.lt_of_succ_lt h)).1 (outsAt0 m c n (Nat.lt_of_succ_lt h)).2.1 (outsAt0 m c n (Nat.lt_of_succ_lt h)).2.2)

/-! ## The running totals -/

/-- Block `s`'s partial sum of the input at class `cc`. -/
def partX (c : Dev nD) (cc : Fin 5) (s : ℕ) : EReal :=
  ∑ h : Fin 384, ∑ tb : Fin 2, ∑ w : Fin 384, slabX m c cc (2 * s + tb.val) h w
/-- Block `s`'s count of the positions of class `cc`. -/
def partO (c : Dev nD) (cc : Fin 5) (s : ℕ) : EReal :=
  ∑ h : Fin 384, ∑ tb : Fin 2, ∑ w : Fin 384, hot (slabT m c (2 * s + tb.val) h w) cc.val
/-- Block `s`'s partial sum of the input over the positions of class `cc`. -/
def partI (c : Dev nD) (cc : Fin 5) (s : ℕ) : EReal :=
  ∑ h : Fin 384, ∑ tb : Fin 2, ∑ w : Fin 384,
    slabX m c cc (2 * s + tb.val) h w * hot (slabT m c (2 * s + tb.val) h w) cc.val

/-- After point `n` the first accumulator holds, at class `cc`, the running total of the input's partial sums. -/
theorem acc2 (c : Dev nD) (cc : Fin 5) : ∀ (n : ℕ) (h : n < cfg0.N),
    (outsAt0 m c n h).1 (ix2 cc (0 : Fin 1)) = run (partX m c cc) n
  | 0, h => by
    rw [first2 m c h, Block.add4, Block.zero1,
      Block.sumX_of (iblk m c 0 ⟨0, h⟩) cc (slabX m c cc) 0 (fun tb hh w => blockX m c ⟨0, h⟩ cc tb hh w)]
    rfl
  | n + 1, h => by
    rw [later2 m c n h, Block.add4, acc2 c cc n (Nat.lt_of_succ_lt h),
      Block.sumX_of (iblk m c 0 ⟨n + 1, h⟩) cc (slabX m c cc) (n + 1) (fun tb hh w => blockX m c ⟨n + 1, h⟩ cc tb hh w)]
    rfl

/-- The second accumulator: the running count of the positions of class `cc`. -/
theorem acc3 (c : Dev nD) (cc : Fin 5) : ∀ (n : ℕ) (h : n < cfg0.N),
    (outsAt0 m c n h).2.1 (ix2 cc (0 : Fin 1)) = run (partO m c cc) n
  | 0, h => by
    rw [first3 m c h, Block.add5, Block.zero2,
      Block.sumO_of (iblk m c 1 ⟨0, h⟩) cc (slabT m c) 0 (fun tb hh w => blockT m c ⟨0, h⟩ tb hh w)]
    rfl
  | n + 1, h => by
    rw [later3 m c n h, Block.add5, acc3 c cc n (Nat.lt_of_succ_lt h),
      Block.sumO_of (iblk m c 1 ⟨n + 1, h⟩) cc (slabT m c) (n + 1) (fun tb hh w => blockT m c ⟨n + 1, h⟩ tb hh w)]
    rfl

/-- The third accumulator: the running total of the input over the positions of class `cc`. -/
theorem acc4 (c : Dev nD) (cc : Fin 5) : ∀ (n : ℕ) (h : n < cfg0.N),
    (outsAt0 m c n h).2.2 (ix2 cc (0 : Fin 1)) = run (partI m c cc) n
  | 0, h => by
    rw [first4 m c h,
      Block.sumI_of (iblk m c 0 ⟨0, h⟩) (iblk m c 1 ⟨0, h⟩) (k0_pay3 (F := Ideal)) cc (slabX m c cc) (slabT m c) 0
        (fun tb hh w => blockX m c ⟨0, h⟩ cc tb hh w) (fun tb hh w => blockT m c ⟨0, h⟩ tb hh w), Block.zero3]
    rfl
  | n + 1, h => by
    rw [later4 m c n h,
      Block.sumI_of (iblk m c 0 ⟨n + 1, h⟩) (iblk m c 1 ⟨n + 1, h⟩) (outsAt0 m c n (Nat.lt_of_succ_lt h)).2.2 cc
        (slabX m c cc) (slabT m c) (n + 1)
        (fun tb hh w => blockX m c ⟨n + 1, h⟩ cc tb hh w) (fun tb hh w => blockT m c ⟨n + 1, h⟩ tb hh w),
      acc4 c cc n (Nat.lt_of_succ_lt h)]
    rfl

end Cert.KernelIdeal.Fold

end
-- ==== Proof.Arrays.lean ====
/-
  The arrays the region leaves and the program's result.

  Each accumulator is written back once, after the last grid point, and its [5, 1] block is the whole result array, so
  each result array ends holding the accumulator's contents after point 19. The host lines after the region reshape the
  three [5, 1] arrays to [5] and combine them with the weights into the scalar result: the shared ending `dice`.
-/
import proofs.«156772_j88115549045609_2_alg».proof.Proof.Gen.KernelIdeal.Frame
import proofs.«156772_j88115549045609_2_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.Dice

variable (m : (ℓ : Loc nD τ sig) → Buf (Elt Ideal) ℓ) (ρ : Dev nD → PrngReg)

/-- The last grid point. -/
abbrev last : Fin cfg0.N := ⟨19, by rw [show cfg0.N = 20 from N_0]; decide⟩

/-- The accumulator of window 2 after the last grid point. -/
abbrev res2 (c : Dev nD) : Buf (Elt Ideal) ((c : Thread nD τ).loc main_v2_0) := (outsAt0 m c 19 last.isLt).1

/-- Its one write-back, after the last point, writes the whole [5, 1] array. -/
theorem flushed2 (c : Dev nD) (t : Fin cfg0.N) (hf : (cfg0.win 2).flush t = true) :
    (dats m 0 c).flushed 2 t = ((cfg0.win 2).blk t).view.read (Elt Ideal) (res2 m c) := by
  have hN : t.val < 20 := lt_of_lt_of_eq t.isLt (show cfg0.N = 20 from N_0)
  have h19 : t.val = 19 := by have := (flush0_2 t).mp hf; omega
  obtain rfl : t = last := Fin.ext h19
  show (cfg0.win 2).cut (grid0.coords last) ((dats m 0 c).after 2 last) = _
  rw [after0_2]
  have hz' : (fun a => win0_2.index last a * main_v2_0.ty.shape.size a) = fun _ => 0 :=
    funext fun a => by fin_cases a <;> decide +kernel
  exact (Memref.read_access_unit_zero (Elt Ideal) main_v2_0 hz' (fun a => by rw [congrFun hz' a]; simp) (res2 m c)).symm

/-- So the array ends holding the accumulator's last contents. -/
theorem final2 (c : Dev nD) : (dats m 0 c).arrAt 2 cfg0.N = res2 m c :=
  (dats m 0 c).arrAt_eq_of_cover 2 (res2 m c) (flushed2 m c) fun i =>
    ⟨last, (flush0_2 last).mpr rfl, by
      show i ∈ ((View.whole main_v2_0).slice (win0_2.rect last)).set
      rw [View.set_slice_whole, Rect.mem_set_unit]
      intro a
      have h0 : (i 0 : Nat) < 5 := (i 0).isLt
      have h1 : (i 1 : Nat) < 1 := (i 1).isLt
      match a with
      | ⟨0, _⟩ =>
        show win0_2.index last 0 * win0_2.size 0 ≤ (i 0 : Nat) ∧ (i 0 : Nat) < win0_2.index last 0 * win0_2.size 0 + win0_2.xsize (grid0.coords last) 0
        rw [show win0_2.index last 0 * win0_2.size 0 = 0 from by decide +kernel, show win0_2.xsize (grid0.coords last) 0 = 5 from by decide +kernel]; omega
      | ⟨1, _⟩ =>
        show win0_2.index last 1 * win0_2.size 1 ≤ (i 1 : Nat) ∧ (i 1 : Nat) < win0_2.index last 1 * win0_2.size 1 + win0_2.xsize (grid0.coords last) 1
        rw [show win0_2.index last 1 * win0_2.size 1 = 0 from by decide +kernel, show win0_2.xsize (grid0.coords last) 1 = 1 from by decide +kernel]; omega⟩

/-- The accumulator of window 3 after the last grid point. -/
abbrev res3 (c : Dev nD) : Buf (Elt Ideal) ((c : Thread nD τ).loc main_v2_1) := (outsAt0 m c 19 last.isLt).2.1

/-- Its one write-back, after the last point, writes the whole [5, 1] array. -/
theorem flushed3 (c : Dev nD) (t : Fin cfg0.N) (hf : (cfg0.win 3).flush t = true) :
    (dats m 0 c).flushed 3 t = ((cfg0.win 3).blk t).view.read (Elt Ideal) (res3 m c) := by
  have hN : t.val < 20 := lt_of_lt_of_eq t.isLt (show cfg0.N = 20 from N_0)
  have h19 : t.val = 19 := by have := (flush0_3 t).mp hf; omega
  obtain rfl : t = last := Fin.ext h19
  show (cfg0.win 3).cut (grid0.coords last) ((dats m 0 c).after 3 last) = _
  rw [after0_3]
  have hz' : (fun a => win0_3.index last a * main_v2_1.ty.shape.size a) = fun _ => 0 :=
    funext fun a => by fin_cases a <;> decide +kernel
  exact (Memref.read_access_unit_zero (Elt Ideal) main_v2_1 hz' (fun a => by rw [congrFun hz' a]; simp) (res3 m c)).symm

/-- So the array ends holding the accumulator's last contents. -/
theorem final3 (c : Dev nD) : (dats m 0 c).arrAt 3 cfg0.N = res3 m c :=
  (dats m 0 c).arrAt_eq_of_cover 3 (res3 m c) (flushed3 m c) fun i =>
    ⟨last, (flush0_3 last).mpr rfl, by
      show i ∈ ((View.whole main_v2_1).slice (win0_3.rect last)).set
      rw [View.set_slice_whole, Rect.mem_set_unit]
      intro a
      have h0 : (i 0 : Nat) < 5 := (i 0).isLt
      have h1 : (i 1 : Nat) < 1 := (i 1).isLt
      match a with
      | ⟨0, _⟩ =>
        show win0_3.index last 0 * win0_3.size 0 ≤ (i 0 : Nat) ∧ (i 0 : Nat) < win0_3.index last 0 * win0_3.size 0 + win0_3.xsize (grid0.coords last) 0
        rw [show win0_3.index last 0 * win0_3.size 0 = 0 from by decide +kernel, show win0_3.xsize (grid0.coords last) 0 = 5 from by decide +kernel]; omega
      | ⟨1, _⟩ =>
        show win0_3.index last 1 * win0_3.size 1 ≤ (i 1 : Nat) ∧ (i 1 : Nat) < win0_3.index last 1 * win0_3.size 1 + win0_3.xsize (grid0.coords last) 1
        rw [show win0_3.index last 1 * win0_3.size 1 = 0 from by decide +kernel, show win0_3.xsize (grid0.coords last) 1 = 1 from by decide +kernel]; omega⟩

/-- The accumulator of window 4 after the last grid point. -/
abbrev res4 (c : Dev nD) : Buf (Elt Ideal) ((c : Thread nD τ).loc main_v2_2) := (outsAt0 m c 19 last.isLt).2.2

/-- Its one write-back, after the last point, writes the whole [5, 1] array. -/
theorem flushed4 (c : Dev nD) (t : Fin cfg0.N) (hf : (cfg0.win 4).flush t = true) :
    (dats m 0 c).flushed 4 t = ((cfg0.win 4).blk t).view.read (Elt Ideal) (res4 m c) := by
  have hN : t.val < 20 := lt_of_lt_of_eq t.isLt (show cfg0.N = 20 from N_0)
  have h19 : t.val = 19 := by have := (flush0_4 t).mp hf; omega
  obtain rfl : t = last := Fin.ext h19
  show (cfg0.win 4).cut (grid0.coords last) ((dats m 0 c).after 4 last) = _
  rw [after0_4]
  have hz' : (fun a => win0_4.index last a * main_v2_2.ty.shape.size a) = fun _ => 0 :=
    funext fun a => by fin_cases a <;> decide +kernel
  exact (Memref.read_access_unit_zero (Elt Ideal) main_v2_2 hz' (fun a => by rw [congrFun hz' a]; simp) (res4 m c)).symm

/-- So the array ends holding the accumulator's last contents. -/
theorem final4 (c : Dev nD) : (dats m 0 c).arrAt 4 cfg0.N = res4 m c :=
  (dats m 0 c).arrAt_eq_of_cover 4 (res4 m c) (flushed4 m c) fun i =>
    ⟨last, (flush0_4 last).mpr rfl, by
      show i ∈ ((View.whole main_v2_2).slice (win0_4.rect last)).set
      rw [View.set_slice_whole, Rect.mem_set_unit]
      intro a
      have h0 : (i 0 : Nat) < 5 := (i 0).isLt
      have h1 : (i 1 : Nat) < 1 := (i 1).isLt
      match a with
      | ⟨0, _⟩ =>
        show win0_4.index last 0 * win0_4.size 0 ≤ (i 0 : Nat) ∧ (i 0 : Nat) < win0_4.index last 0 * win0_4.size 0 + win0_4.xsize (grid0.coords last) 0
        rw [show win0_4.index last 0 * win0_4.size 0 = 0 from by decide +kernel, show win0_4.xsize (grid0.coords last) 0 = 5 from by decide +kernel]; omega
      | ⟨1, _⟩ =>
        show win0_4.index last 1 * win0_4.size 1 ≤ (i 1 : Nat) ∧ (i 1 : Nat) < win0_4.index last 1 * win0_4.size 1 + win0_4.xsize (grid0.coords last) 1
        rw [show win0_4.index last 1 * win0_4.size 1 = 0 from by decide +kernel, show win0_4.xsize (grid0.coords last) 1 = 1 from by decide +kernel]; omega⟩

/-- The program's result: the shared ending applied to the three arrays reshaped to [5] and the weights. -/
theorem tail_eq (c : Dev nD) :
    Pipeline.afterTail₀ cfgs (dats m) 0 (V0 m) [hostOps1] c main_v17
      = dice bcast_S_S5 reducesTo_S5_S_d0 h_S_ (shapeCast S5 (res4 m c) shapeCasts_S5x1_S5)
          (shapeCast S5 (res2 m c) shapeCasts_S5x1_S5) (shapeCast S5 (res3 m c) shapeCasts_S5x1_S5)
          (m ((c : Thread nD τ).loc main_arg2)) := by
  unfold Pipeline.afterTail₀
  show StableHlo.after hostOps1 _ (Proc.devRef .tc main_v17) = _
  after_results
  have e2 : Pipeline.withArrays (cfgs 0).spec c (V0 m c) (fun w => (dats m 0 c).arrAt w (cfgs 0).N) (Proc.devRef .tc main_v2_0)
      = res2 m c := (Pipeline.withArrays_arr spec0 launch0.win.arr_inj c _ _ 2).trans (final2 m c)
  have e3 : Pipeline.withArrays (cfgs 0).spec c (V0 m c) (fun w => (dats m 0 c).arrAt w (cfgs 0).N) (Proc.devRef .tc main_v2_1)
      = res3 m c := (Pipeline.withArrays_arr spec0 launch0.win.arr_inj c _ _ 3).trans (final3 m c)
  have e4 : Pipeline.withArrays (cfgs 0).spec c (V0 m c) (fun w => (dats m 0 c).arrAt w (cfgs 0).N) (Proc.devRef .tc main_v2_2)
      = res4 m c := (Pipeline.withArrays_arr spec0 launch0.win.arr_inj c _ _ 4).trans (final4 m c)
  have ea : Pipeline.withArrays (cfgs 0).spec c (V0 m c) (fun w => (dats m 0 c).arrAt w (cfgs 0).N) (Proc.devRef .tc main_arg2)
      = m ((c : Thread nD τ).loc main_arg2) :=
    (Pipeline.withArrays_of_ne spec0 c (V0 m c) _ main_arg2
      (by exact (by decide : ∀ w, Pipeline.arrRef spec0 w ≠ main_arg2))).trans (V_main_arg2 m c)
  rw [e2, e3, e4, ea]
  rfl

/-- The run, read: every weakly fair execution terminates with the result at the shared ending of the three arrays
    and the weights, the arguments unchanged. -/
theorem run : θ_run defs (onTc (τ := τ) (main (F := Ideal))) ⟨m, fun _ => 0, ρ⟩ fun r => ∀ c : Dev nD,
      r.2.mem ((c : Thread nD τ).loc main_v17)
        = dice bcast_S_S5 reducesTo_S5_S_d0 h_S_ (shapeCast S5 (res4 m c) shapeCasts_S5x1_S5)
            (shapeCast S5 (res2 m c) shapeCasts_S5x1_S5) (shapeCast S5 (res3 m c) shapeCasts_S5x1_S5)
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v17 (Pipeline.mem_restRefs_of main_v17 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Arrays

end
-- ==== Proof.LibSumBlocks.lean ====
/-
  Regrouping a finite sum into blocks.

  A sum over the positions `0 … a·b·c − 1` of a function of the position is the triple sum over a block number
  `t < a`, a row `r < b` inside the block and a lane `l < c` inside the row, of the function at the position
  `(b·t + r)·c + l` — the row-major position of `(t, r, l)`. It holds in every commutative additive monoid, the
  extended reals included: only associativity and commutativity of the addition are used. Also: a sum over the
  indices of a rank-1 array is the sum over its one coordinate.
-/
import Idealize.ShloMosaic.Lib.ValueIdx

open scoped BigOperators

namespace Cert.Lib.SumBlocks

open Idealize.ShloMosaic Idealize.ShloMosaic.ValueIdx

/-- A sum over the positions below `m·n` is the double sum over the quotient `i < m` and the remainder `j < n` of the
    position `n·i + j`. -/
theorem sum_fin_mul {M : Type*} [AddCommMonoid M] (m n : ℕ) (g : ℕ → M) :
    ∑ k : Fin (m * n), g k.val = ∑ i : Fin m, ∑ j : Fin n, g (n * i.val + j.val) := by
  rw [← Equiv.sum_comp finProdFinEquiv (fun k : Fin (m * n) => g k.val), Fintype.sum_prod_type]
  refine Finset.sum_congr rfl fun i _ => Finset.sum_congr rfl fun j _ => ?_
  show g (j.val + n * i.val) = g (n * i.val + j.val)
  rw [Nat.add_comm]

/-- A sum over the positions below `N = a·b·c` is the triple sum over blocks, rows and lanes of the row-major position. -/
theorem sum_fin_blocks {M : Type*} [AddCommMonoid M] (a b c N : ℕ) (hN : N = a * b * c) (g : ℕ → M) :
    ∑ k : Fin N, g k.val = ∑ t : Fin a, ∑ r : Fin b, ∑ l : Fin c, g ((b * t.val + r.val) * c + l.val) := by
  subst hN
  rw [sum_fin_mul (a * b) c g, sum_fin_mul a b (fun u => ∑ l : Fin c, g (c * u + l.val))]
  refine Finset.sum_congr rfl fun t _ => Finset.sum_congr rfl fun r _ => Finset.sum_congr rfl fun l _ => ?_
  rw [Nat.mul_comm c]

/-- The indices of a rank-1 array are its coordinates … -/
def idxEquiv1 {n : ℕ} : (⟨1, ![n]⟩ : Shape).Idx ≃ Fin n where
  toFun i := i 0
  invFun k := ix1 k
  left_inv i := (eq_ix1 i).symm
  right_inv _ := rfl

/-- … so a sum over them is the sum over the coordinate. -/
theorem sum_idx1 {M : Type*} [AddCommMonoid M] {n : ℕ} (f : (⟨1, ![n]⟩ : Shape).Idx → M) :
    ∑ i, f i = ∑ k : Fin n, f (ix1 k) := by
  rw [← Equiv.sum_comp (idxEquiv1 (n := n)).symm f]
  rfl

end Cert.Lib.SumBlocks
-- ==== Proof.Sums.lean ====
/-
  Forty slabs visited two at a time.

  The forty slabs of a [4·10]-long leading axis, taken two at a time in twenty blocks, each block summed over rows, over
  its two slabs and over lanes, add up to the sum over (n, t, row, lane) of the slab `10·n + t` (`blocks_eq`). Only
  associativity and commutativity of the addition are used, so it holds on the extended reals.
-/
import Idealize.ShloMosaic.Lib.ValueIdx
import proofs.«156772_j88115549045609_2_alg».proof.Proof.LibSumBlocks

noncomputable section

namespace Cert.Dice.Sums

open Idealize.ShloMosaic Idealize.ShloMosaic.ValueIdx
open scoped BigOperators

/-- Twenty blocks of two slabs each, summed rows-slabs-lanes inside a block, are the forty slabs `10·n + t` summed
    over (n, t, row, lane). -/
theorem blocks_eq {M : Type*} [AddCommMonoid M] (g : ℕ → Fin 384 → Fin 384 → M) :
    ∑ s ∈ Finset.range 20, ∑ h : Fin 384, ∑ tb : Fin 2, ∑ w : Fin 384, g (2 * s + tb.val) h w
      = ∑ n : Fin 4, ∑ t : Fin 10, ∑ h : Fin 384, ∑ w : Fin 384, g (10 * n.val + t.val) h w := by
  have e1 : ∑ s ∈ Finset.range 20, ∑ h : Fin 384, ∑ tb : Fin 2, ∑ w : Fin 384, g (2 * s + tb.val) h w
      = ∑ s : Fin 20, ∑ tb : Fin 2, ∑ h : Fin 384, ∑ w : Fin 384, g (2 * s.val + tb.val) h w := by
    rw [Finset.sum_range]
    exact Finset.sum_congr rfl fun s _ => Finset.sum_comm
  rw [e1, ← Cert.Lib.SumBlocks.sum_fin_mul 20 2 (fun p => ∑ h : Fin 384, ∑ w : Fin 384, g p h w),
    ← Cert.Lib.SumBlocks.sum_fin_mul 4 10 (fun p => ∑ h : Fin 384, ∑ w : Fin 384, g p h w)]

end Cert.Dice.Sums

end
-- ==== Proof.Totals.lean ====
/-
  The three result arrays as sums over the whole input.

  The reshape to forty slabs keeps the row-major position, so slab `10·n + t` at (class, row, lane) is the input at
  (n, t, class, row, lane), and for the intensities at (n, t, 0, row, lane). The accumulators' contents after the last
  point are the totals of the twenty blocks' partial sums; regrouped (`Sums.blocks_eq`) they are the sums over
  (n, t, row, lane) of the input, of the one-hot indicator, and of their product.
-/
import proofs.«156772_j88115549045609_2_alg».proof.Proof.Fold
import proofs.«156772_j88115549045609_2_alg».proof.Proof.Arrays
import proofs.«156772_j88115549045609_2_alg».proof.Proof.Sums

noncomputable section

open Idealize.ShloMosaic Idealize.ShloMosaic.TcCoe Idealize.SL.Sem Idealize.ShloMosaic.ValueIdx
open Idealize.ShloMosaic.Pipeline (Dat)

namespace Cert.KernelIdeal.Totals

open Cert.KernelIdeal Cert.KernelIdeal.Gen Cert.Dice Cert.Dice.Sums Cert.Lib.AxisSums Cert.KernelIdeal.Fold Cert.KernelIdeal.Arrays
open scoped BigOperators

variable (m : (ℓ : Loc nD τ sig) → Buf (Elt Ideal) ℓ)

/-- The input and the intensities the program is launched with, as arrays of extended reals. -/
abbrev argX (c : Dev nD) : S4x10x5x384x384.Idx → EReal := m ((c : Thread nD τ).loc main_arg0)
abbrev argT (c : Dev nD) : S4x10x1x384x384.Idx → EReal := m ((c : Thread nD τ).loc main_arg1)

/-- The region finds the input reshaped to forty slabs … -/
theorem entryX (c : Dev nD) : (V m c main_v0 : S40x5x384x384.Idx → EReal)
    = shapeCast S40x5x384x384 (m ((c : Thread nD τ).loc main_arg0)) shapeCasts_S4x10x5x384x384_S40x5x384x384 := by
  show StableHlo.after hostOps0 (fun b => m (c, b)) (Proc.devRef .tc main_v0) = _
  after_results
  rfl

/-- … and the intensities likewise. -/
theorem entryT (c : Dev nD) : (V m c main_v1 : S40x384x384.Idx → EReal)
    = shapeCast S40x384x384 (m ((c : Thread nD τ).loc main_arg1)) shapeCasts_S4x10x1x384x384_S40x384x384 := by
  show StableHlo.after hostOps0 (fun b => m (c, b)) (Proc.devRef .tc main_v1) = _
  after_results
  rfl

/-- Slab `10·n + t` of the reshaped input is the input at (n, t). -/
theorem slabX_eq (c : Dev nD) (cc : Fin 5) (n : Fin 4) (t : Fin 10) (h w : Fin 384) :
    slabX m c cc (10 * n.val + t.val) h w
      = argX m c (ix5 n t cc h w) := by
  have hp : 10 * n.val + t.val < 40 := by have := n.isLt; have := t.isLt; omega
  unfold slabX
  rw [dif_pos hp, entryX]
  exact shapeCast_apply _ _ _ (ix5 n t cc h w) (by
    rw [Shape.rowMajor_val_five, Shape.rowMajor_val_four]
    show (((n.val * 10 + t.val) * 5 + cc.val) * 384 + h.val) * 384 + w.val
      = (((10 * n.val + t.val) * 5 + cc.val) * 384 + h.val) * 384 + w.val
    omega)

/-- Slab `10·n + t` of the reshaped intensities is the intensity array at (n, t, 0). -/
theorem slabT_eq (c : Dev nD) (n : Fin 4) (t : Fin 10) (h w : Fin 384) :
    slabT m c (10 * n.val + t.val) h w
      = argT m c (ix5 n t (0 : Fin 1) h w) := by
  have hp : 10 * n.val + t.val < 40 := by have := n.isLt; have := t.isLt; omega
  unfold slabT
  rw [dif_pos hp, entryT]
  exact shapeCast_apply _ _ _ (ix5 n t (0 : Fin 1) h w) (by
    rw [Shape.rowMajor_val_five, Shape.rowMajor_val_three]
    show (((n.val * 10 + t.val) * 1 + 0) * 384 + h.val) * 384 + w.val
      = ((10 * n.val + t.val) * 384 + h.val) * 384 + w.val
    omega)

/-- A [5, 1] column reshaped to [5] reads the column at (class, 0). -/
theorem column_apply (v : S5x1.Idx → EReal) (cc : Fin 5) :
    shapeCast S5 v shapeCasts_S5x1_S5 (ix1 cc) = v (ix2 cc (0 : Fin 1)) :=
  shapeCast_apply _ _ _ (ix2 cc (0 : Fin 1)) (by
    rw [Shape.rowMajor_val_two, Shape.rowMajor_val_one]
    show cc.val * 1 + 0 = cc.val
    omega)

/-- The first result array at class `cc`: the input summed over every other coordinate. -/
theorem totalX (c : Dev nD) (cc : Fin 5) :
    shapeCast S5 (res2 m c) shapeCasts_S5x1_S5 (ix1 cc)
      = ∑ n : Fin 4, ∑ t : Fin 10, ∑ h : Fin 384, ∑ w : Fin 384,
          argX m c (ix5 n t cc h w) := by
  rw [column_apply]
  show (outsAt0 m c 19 _).1 (ix2 cc (0 : Fin 1)) = _
  rw [acc2 m c cc 19 _, run_eq]
  show ∑ s ∈ Finset.range 20, partX m c cc s = _
  unfold partX
  rw [blocks_eq (fun p h w => slabX m c cc p h w)]
  exact Finset.sum_congr rfl fun n _ => Finset.sum_congr rfl fun t _ => Finset.sum_congr rfl fun h _ =>
    Finset.sum_congr rfl fun w _ => slabX_eq m c cc n t h w

/-- The second result array at class `cc`: the number of positions of that class. -/
theorem totalO (c : Dev nD) (cc : Fin 5) :
    shapeCast S5 (res3 m c) shapeCasts_S5x1_S5 (ix1 cc)
      = ∑ n : Fin 4, ∑ t : Fin 10, ∑ h : Fin 384, ∑ w : Fin 384,
          hot (argT m c (ix5 n t (0 : Fin 1) h w)) cc.val := by
  rw [column_apply]
  show (outsAt0 m c 19 _).2.1 (ix2 cc (0 : Fin 1)) = _
  rw [acc3 m c cc 19 _, run_eq]
  show ∑ s ∈ Finset.range 20, partO m c cc s = _
  unfold partO
  rw [blocks_eq (fun p h w => hot (slabT m c p h w) cc.val)]
  exact Finset.sum_congr rfl fun n _ => Finset.sum_congr rfl fun t _ => Finset.sum_congr rfl fun h _ =>
    Finset.sum_congr rfl fun w _ => by rw [slabT_eq m c n t h w]

/-- The third result array at class `cc`: the input summed over the positions of that class. -/
theorem totalI (c : Dev nD) (cc : Fin 5) :
    shapeCast S5 (res4 m c) shapeCasts_S5x1_S5 (ix1 cc)
      = ∑ n : Fin 4, ∑ t : Fin 10, ∑ h : Fin 384, ∑ w : Fin 384,
          argX m c (ix5 n t cc h w)
            * hot (argT m c (ix5 n t (0 : Fin 1) h w)) cc.val := by
  rw [column_apply]
  show (outsAt0 m c 19 _).2.2 (ix2 cc (0 : Fin 1)) = _
  rw [acc4 m c cc 19 _, run_eq]
  show ∑ s ∈ Finset.range 20, partI m c cc s = _
  unfold partI
  rw [blocks_eq (fun p h w => slabX m c cc p h w * hot (slabT m c p h w) cc.val)]
  exact Finset.sum_congr rfl fun n _ => Finset.sum_congr rfl fun t _ => Finset.sum_congr rfl fun h _ =>
    Finset.sum_congr rfl fun w _ => by rw [slabX_eq m c cc n t h w, slabT_eq m c n t h w]

end Cert.KernelIdeal.Totals

end
-- ==== Proof.RefValue.lean ====
/-
  The reference program's three per-class totals and its ending, read as plain sums.

  The program moves the class axis of the input [4, 10, 5, 384, 384] to the second place, bins every target pixel into a
  class, turns the class into a one-hot indicator over the five classes, and sums three arrays over every axis but the
  class axis. Read at a class `c`:
  * the input total is `0 + ∑ (n, t, h, w), x (n, t, c, h, w)`  (`totalX`);
  * the one-hot total is `0 + ∑ (n, t, h, w), hot (y (n, t, 0, h, w)) c`  (`totalO`);
  * the intersection is `0 + ∑ (n, t, h, w), x (n, t, c, h, w) · hot (y (n, t, 0, h, w)) c`  (`totalI`);
  and the scalar result is the shared ending `dice` of these three totals and the class weights (`result_eq`).
-/
import proofs.«156772_j88115549045609_2_alg».proof.Proof.Gen.ReferenceIdeal.Read
import proofs.«156772_j88115549045609_2_alg».proof.Proof.Spec
import proofs.«156772_j88115549045609_2_alg».proof.Proof.LibAxisSums
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Cert.Dice Idealize.ShloMosaic Idealize.ShloMosaic.ValueIdx
open scoped BigOperators

/-- The input with its class axis moved to the second place, read at a coordinate. -/
theorem input_at (x0 : (⟨S4x10x5x384x384, .f32⟩ : BufTy).Contents (Elt Ideal)) (n : Fin 4) (cc : Fin 5) (t : Fin 10) (h w : Fin 384) :
    val_main_v0 (F := Ideal) x0 (ix5 n cc t h w) = x0 (ix5 n t cc h w) := by
  rw [val_main_v0_apply]
  exact congrArg x0 (funext fun a => match a with | ⟨0, _⟩ => rfl | ⟨1, _⟩ => rfl | ⟨2, _⟩ => rfl | ⟨3, _⟩ => rfl | ⟨4, _⟩ => rfl)

/-- The target with its unit axis moved to the second place, read at a coordinate. -/
theorem target_at (x1 : (⟨S4x10x1x384x384, .f32⟩ : BufTy).Contents (Elt Ideal)) (n : Fin 4) (t : Fin 10) (h w : Fin 384) :
    val_main_v1 (F := Ideal) x1 (ix5 n (0 : Fin 1) t h w) = x1 (ix5 n t (0 : Fin 1) h w) := by
  rw [val_main_v1_apply]
  exact congrArg x1 (funext fun a => match a with | ⟨0, _⟩ => rfl | ⟨1, _⟩ => rfl | ⟨2, _⟩ => rfl | ⟨3, _⟩ => rfl | ⟨4, _⟩ => rfl)

/-- The class word of a pixel: the count of the four thresholds its intensity reaches. -/
theorem class_at (x1 : (⟨S4x10x1x384x384, .f32⟩ : BufTy).Contents (Elt Ideal)) (n : Fin 4) (t : Fin 10) (h w : Fin 384) :
    val_main_v18 (F := Ideal) x1 (ix5 n (0 : Fin 1) t h w) = bin (x1 (ix5 n t (0 : Fin 1) h w)) := by
  rw [val_main_v18_apply, val_main_v17_apply, val_main_v16_apply, val_main_v15_apply, val_main_cst_2_apply,
    val_main_v14_apply, val_main_v13_apply, val_main_v12_apply, val_main_v11_apply, val_main_cst_1_apply,
    val_main_v10_apply, val_main_v9_apply, val_main_v8_apply, val_main_v7_apply, val_main_cst_0_apply,
    val_main_v6_apply, val_main_v5_apply, val_main_v4_apply, val_main_v3_apply, val_main_cst_apply,
    val_main_v2_apply, val_main_c_apply, target_at]
  rfl

/-- The one-hot array at a coordinate: the indicator that the pixel's class is the coordinate's class. -/
theorem onehot_apply (x1 : (⟨S4x10x1x384x384, .f32⟩ : BufTy).Contents (Elt Ideal)) (n : Fin 4) (cc : Fin 5) (t : Fin 10) (h w : Fin 384) :
    val_main_v24 (F := Ideal) x1 (ix5 n cc t h w) = hot (x1 (ix5 n t (0 : Fin 1) h w)) cc.val := by
  have e1 : idx_main_v21 (ix5 n cc t h w) = ix5 n (0 : Fin 1) t h w := funext fun a => match a with | ⟨0, _⟩ => rfl | ⟨1, _⟩ => rfl | ⟨2, _⟩ => rfl | ⟨3, _⟩ => rfl | ⟨4, _⟩ => rfl
  have e2 : ((idx_main_v20 (idx_main_v22 (ix5 n cc t h w))) 0).val = cc.val := by
    show ((((0 * 5 + cc.val) * 1 + 0) * 1 + 0) * 1 + 0) = cc.val
    omega
  rw [val_main_v24_apply, val_main_v23_apply, val_main_v21_apply, val_main_v22_apply, val_main_v20_apply,
    val_main_v19_apply, e1, e2, class_at]
  rfl

/-- A sum of an array of the transposed shape over every axis but the class axis, at a class: the initial value plus
    the fourfold sum of the array's entries of that class. -/
theorem total_at (y : (⟨S4x5x10x384x384, .f32⟩ : BufTy).Contents (Elt Ideal)) (cc : Fin 5)
    (g : Fin 4 → Fin 10 → Fin 384 → Fin 384 → Ideal .f32)
    (hy : ∀ n t h w, y (ix5 n cc t h w) = g n t h w) :
    Host.reduceAdd (F := Ideal) y (constant (F := Ideal) S_ .f32 0x00000000#32)
        Gen.reducesTo_S4x5x10x384x384_S5_d0_2_3_4 Gen.h_S_ (ix1 cc)
      = Ideal.ofBits .f32 0x00000000#32 + ∑ n : Fin 4, ∑ t : Fin 10, ∑ h : Fin 384, ∑ w : Fin 384, g n t h w := by
  refine (Cert.Lib.AxisSums.hostReduceAdd_keep1 (a := 4) (b := 5) (c := 10) (d := 384) (e := 384)
    Gen.reducesTo_S4x5x10x384x384_S5_d0_2_3_4 y (Ideal.ofBits .f32 0x00000000#32) cc).trans ?_
  refine congrArg (fun s => Ideal.ofBits .f32 0x00000000#32 + s) ?_
  exact Finset.sum_congr rfl fun n _ => Finset.sum_congr rfl fun t _ => Finset.sum_congr rfl fun h _ =>
    Finset.sum_congr rfl fun w _ => hy n t h w

/-- The input total of a class: the sum of the input over every pixel of every image and slice, at that class. -/
theorem totalX (x0 : (⟨S4x10x5x384x384, .f32⟩ : BufTy).Contents (Elt Ideal)) (cc : Fin 5) :
    val_main_v27 (F := Ideal) x0 (ix1 cc)
      = Ideal.ofBits .f32 0x00000000#32 + ∑ n : Fin 4, ∑ t : Fin 10, ∑ h : Fin 384, ∑ w : Fin 384, x0 (ix5 n t cc h w) :=
  total_at (val_main_v0 (F := Ideal) x0) cc (fun n t h w => x0 (ix5 n t cc h w)) (fun n t h w => input_at x0 n cc t h w)

/-- The one-hot total of a class: the number of pixels whose class it is, as a sum of indicators. -/
theorem totalO (x1 : (⟨S4x10x1x384x384, .f32⟩ : BufTy).Contents (Elt Ideal)) (cc : Fin 5) :
    val_main_v28 (F := Ideal) x1 (ix1 cc)
      = Ideal.ofBits .f32 0x00000000#32 + ∑ n : Fin 4, ∑ t : Fin 10, ∑ h : Fin 384, ∑ w : Fin 384, hot (x1 (ix5 n t (0 : Fin 1) h w)) cc.val :=
  total_at (val_main_v24 (F := Ideal) x1) cc (fun n t h w => hot (x1 (ix5 n t (0 : Fin 1) h w)) cc.val)
    (fun n t h w => onehot_apply x1 n cc t h w)

/-- The intersection of a class: the sum of the input over the pixels of that class. -/
theorem totalI (x0 : (⟨S4x10x5x384x384, .f32⟩ : BufTy).Contents (Elt Ideal)) (x1 : (⟨S4x10x1x384x384, .f32⟩ : BufTy).Contents (Elt Ideal)) (cc : Fin 5) :
    val_main_v26 (F := Ideal) x0 x1 (ix1 cc)
      = Ideal.ofBits .f32 0x00000000#32 + ∑ n : Fin 4, ∑ t : Fin 10, ∑ h : Fin 384, ∑ w : Fin 384, x0 (ix5 n t cc h w) * hot (x1 (ix5 n t (0 : Fin 1) h w)) cc.val :=
  total_at (val_main_v25 (F := Ideal) x0 x1) cc
    (fun n t h w => x0 (ix5 n t cc h w) * hot (x1 (ix5 n t (0 : Fin 1) h w)) cc.val)
    (fun n t h w => by rw [val_main_v25_apply, input_at, onehot_apply]; rfl)

/-- The program's scalar result is the shared ending applied to the three totals and the class weights. -/
theorem result_eq (x0 : (⟨S4x10x5x384x384, .f32⟩ : BufTy).Contents (Elt Ideal)) (x1 : (⟨S4x10x1x384x384, .f32⟩ : BufTy).Contents (Elt Ideal)) (x2 : (⟨S5, .f32⟩ : BufTy).Contents (Elt Ideal)) :
    val_main_v40 (F := Ideal) x0 x1 x2 = dice Gen.bcast_S_S5 Gen.reducesTo_S5_S_d0 Gen.h_S_ (val_main_v26 (F := Ideal) x0 x1) (val_main_v27 (F := Ideal) x0) (val_main_v28 (F := Ideal) x1) x2 := rfl

end Cert.ReferenceIdeal.RefValue

end
-- ==== Proof.lean ====
/-
  The multi-class dice loss: a kernel that accumulates three per-class totals block by block, against the reference
  that takes the same three totals in one reduction each.

  Both programs bin every intensity of the target by the thresholds 0.25, 0.375, 0.5, 0.625 into one of five classes,
  and from the input `x` of shape [4, 10, 5, 384, 384] form, for each class `c`,
    the input total         SX_c  = ∑ (n, t, h, w)  x (n, t, c, h, w),
    the one-hot total       SOH_c = ∑ (n, t, h, w)  [class of target (n, t, 0, h, w) = c],
    the intersection        I_c   = ∑ (n, t, h, w)  x (n, t, c, h, w) · [class of target (n, t, 0, h, w) = c],
  and end with the same weighted sum  ∑_c w_c · (1 − (2·I_c + ε) / ((SX_c + SOH_c) + ε)).
  The reference transposes the class axis forward and reduces over the four other axes. The kernel reshapes (n, t) to
  forty slabs, visits them two at a time over twenty grid points, sums each block over lanes, slabs and rows, and adds
  the block's partial sums into three [5, 1] accumulators that it zeroes at the first point and writes back after the
  last. On the extended reals addition is associative and commutative, so the two groupings of each total agree
  (nothing else is needed: no term is moved across a product or a quotient, and the precondition is never opened).
  The idealization rewrote nothing, so what it preserves is trivially true.
-/
import proofs.«156772_j88115549045609_2_alg».proof.Defs
import proofs.«156772_j88115549045609_2_alg».proof.Proof.Gen.Kernel
import proofs.«156772_j88115549045609_2_alg».proof.Proof.Gen.Kernel.Frame
import proofs.«156772_j88115549045609_2_alg».proof.Proof.Gen.KernelIdeal
import proofs.«156772_j88115549045609_2_alg».proof.Proof.Gen.KernelIdeal.Frame
import proofs.«156772_j88115549045609_2_alg».proof.Proof.Gen.ReferenceIdeal
import proofs.«156772_j88115549045609_2_alg».proof.Proof.Gen.ReferenceIdeal.Run
import proofs.«156772_j88115549045609_2_alg».proof.Proof.Gen.ReferenceIdeal.Read
import proofs.«156772_j88115549045609_2_alg».proof.Proof.Gen.Pre_finite_inputs
import proofs.«156772_j88115549045609_2_alg».proof.Proof.Totals
import proofs.«156772_j88115549045609_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.Dice

/-- The kernel's ending over its three result arrays is the reference's result on the same arguments: at every class
    the three totals agree (the reference's start from an initial zero). -/
theorem ending_eq (m : (ℓ : Loc Cert.KernelIdeal.nD Cert.KernelIdeal.τ Cert.KernelIdeal.sig) → Buf (Elt Ideal) ℓ)
    (c : Dev Cert.KernelIdeal.nD) :
    Cert.ReferenceIdeal.Read.val_main_v40 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = dice Cert.KernelIdeal.Gen.bcast_S_S5 Cert.KernelIdeal.Gen.reducesTo_S5_S_d0 Cert.KernelIdeal.Gen.h_S_
          (shapeCast Cert.KernelIdeal.S5 (Cert.KernelIdeal.Arrays.res4 m c) Cert.KernelIdeal.Gen.shapeCasts_S5x1_S5)
          (shapeCast Cert.KernelIdeal.S5 (Cert.KernelIdeal.Arrays.res2 m c) Cert.KernelIdeal.Gen.shapeCasts_S5x1_S5)
          (shapeCast Cert.KernelIdeal.S5 (Cert.KernelIdeal.Arrays.res3 m c) Cert.KernelIdeal.Gen.shapeCasts_S5x1_S5)
          (m ((c.tc : Thread Cert.KernelIdeal.nD Cert.KernelIdeal.τ).loc Cert.KernelIdeal.main_arg2)) := by
  rw [Cert.ReferenceIdeal.RefValue.result_eq]
  have eI : Cert.ReferenceIdeal.Read.val_main_v26 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = shapeCast Cert.KernelIdeal.S5 (Cert.KernelIdeal.Arrays.res4 m c) Cert.KernelIdeal.Gen.shapeCasts_S5x1_S5 := by
    funext j
    obtain ⟨cc, rfl⟩ : ∃ cc : Fin 5, j = ix1 cc := ⟨j 0, eq_ix1 j⟩
    rw [Cert.ReferenceIdeal.RefValue.totalI, Ideal.ofBits_zero_f32, zero_add]
    exact (Cert.KernelIdeal.Totals.totalI m c cc).symm
  have eX : Cert.ReferenceIdeal.Read.val_main_v27 (F := Ideal)
        (m ((c.tc : Thread Cert.KernelIdeal.nD Cert.KernelIdeal.τ).loc Cert.KernelIdeal.main_arg0))
      = shapeCast Cert.KernelIdeal.S5 (Cert.KernelIdeal.Arrays.res2 m c) Cert.KernelIdeal.Gen.shapeCasts_S5x1_S5 := by
    funext j
    obtain ⟨cc, rfl⟩ : ∃ cc : Fin 5, j = ix1 cc := ⟨j 0, eq_ix1 j⟩
    rw [Cert.ReferenceIdeal.RefValue.totalX, Ideal.ofBits_zero_f32, zero_add]
    exact (Cert.KernelIdeal.Totals.totalX m c cc).symm
  have eO : Cert.ReferenceIdeal.Read.val_main_v28 (F := Ideal)
        (m ((c.tc : Thread Cert.KernelIdeal.nD Cert.KernelIdeal.τ).loc Cert.KernelIdeal.main_arg1))
      = shapeCast Cert.KernelIdeal.S5 (Cert.KernelIdeal.Arrays.res3 m c) Cert.KernelIdeal.Gen.shapeCasts_S5x1_S5 := by
    funext j
    obtain ⟨cc, rfl⟩ : ∃ cc : Fin 5, j = ix1 cc := ⟨j 0, eq_ix1 j⟩
    rw [Cert.ReferenceIdeal.RefValue.totalO, Ideal.ofBits_zero_f32, zero_add]
    exact (Cert.KernelIdeal.Totals.totalO m c cc).symm
  rw [eI, eX, eO]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs run, from memories that agree on the arguments, to the same scalar: the shared ending of
    the three per-class totals and the weights. -/
theorem algebraic : Cert.algebraic_KernelIdeal_ReferenceIdeal := by
  intro m ρ m' ρ' _ hagree
  refine ⟨_, Cert.KernelIdeal.Arrays.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v40_eq _ _ _).trans ?_
  rw [(hagree c).1, (hagree c).2.1, (hagree c).2.2]
  exact ending_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
